-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S100000x128 : Shape := ⟨2, ![100000, 128]⟩
abbrev S400000 : Shape := ⟨1, ![400000]⟩
abbrev S128x256 : Shape := ⟨2, ![128, 256]⟩
abbrev S3x256x256 : Shape := ⟨3, ![3, 256, 256]⟩
abbrev S3x256 : Shape := ⟨2, ![3, 256]⟩
abbrev S512x256 : Shape := ⟨2, ![512, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S400000 : S_.BroadcastsInDim S400000 (![] : Fin 0 → Fin S400000.rank)
  reducesTo_S400000_S_d0 : S400000.ReducesTo [0] S_
  bcast_S_S128x256 : S_.BroadcastsInDim S128x256 (![] : Fin 0 → Fin S128x256.rank)
  reducesTo_S128x256_S_d0_1 : S128x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg15 : FVec F S512x256 .f32) (main_arg16 : FVec F S256 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S512x256 .f32 := Host.absf main_arg15
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg11 : FVec F S3x256x256 .f32) (main_arg12 : FVec F S3x256 .f32) (main_arg13 : FVec F S3x256x256 .f32) (main_arg14 : FVec F S3x256 .f32) (main_arg15 : FVec F S512x256 .f32) (main_arg16 : FVec F S256 .f32) (main_v33 : IVec S_ 1) : IVec S_ 1 :=
  let main_v34 : FVec F S3x256x256 .f32 := Host.absf main_arg11
  let main_cst_12 : FVec F S_ .f32 := constant S_ .f32 0x7F800000#32
  let main_v35 : FVec F S3x256x256 .f32 := broadcastInDim S3x256x256 ![] bcast_S_S3x256x256 main_cst_12
  let main_v36 : IVec S3x256x256 1 := cmpf .olt main_v34 main_v35
  let main_c_13 : IVec S_ 1 := constantI S_ 1 1#1
  let main_v37 : IVec S_ 1 := (fun x v => Host.reduce IntOp.andi x v reducesTo_S3x256x256_S_d0_1_2 h_S_) main_v36 main_c_13
  let main_v38 : IVec S_ 1 := andi main_v33 main_v37
  let main_v39 : FVec F S3x256 .f32 := Host.absf main_arg12
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256x256 .f32 := Host.absf main_arg13
  let main_cst_16 : FVec F S_ .f32 := constant S_ .f32 0x7F800000#32
  let main_v45 : FVec F S3x256x256 .f32 := broadcastInDim S3x256x256 ![] bcast_S_S3x256x256 main_cst_16
  let main_v46 : IVec S3x256x256 1 := cmpf .olt main_v44 main_v45
  let main_c_17 : IVec S_ 1 := constantI S_ 1 1#1
  let main_v47 : IVec S_ 1 := (fun x v => Host.reduce IntOp.andi x v reducesTo_S3x256x256_S_d0_1_2 h_S_) main_v46 main_c_17
  let main_v48 : IVec S_ 1 := andi main_v43 main_v47
  let main_v49 : FVec F S3x256 .f32 := Host.absf main_arg14
  let main_cst_18 : FVec F S_ .f32 := constant S_ .f32 0x7F800000#32
  let main_v50 : FVec F S3x256 .f32 := broadcastInDim S3x256 ![] bcast_S_S3x256 main_cst_18
  fn_part3 (F := F) main_arg15 main_arg16 main_v48 main_v49 main_v50

def fn_part1 {F : FTy → Type} [FloatOps F] (main_arg4 : FVec F S400000 .f32) (main_arg9 : FVec F S128x256 .f32) (main_arg10 : FVec F S128x256 .f32) (main_arg11 : FVec F S3x256x256 .f32) (main_arg12 : FVec F S3x256 .f32) (main_arg13 : FVec F S3x256x256 .f32) (main_arg14 : FVec F S3x256 .f32) (main_arg15 : FVec F S512x256 .f32) (main_arg16 : FVec F S256 .f32) (main_v13 : IVec S_ 1) (main_v16 : IVec S400000 1) : IVec S_ 1 :=
  let main_c_5 : IVec S_ 1 := constantI S_ 1 1#1
  let main_v17 : IVec S_ 1 := (fun x v => Host.reduce IntOp.andi x v reducesTo_S400000_S_d0 h_S_) main_v16 main_c_5
  let main_v18 : IVec S_ 1 := andi main_v13 main_v17
  let main_v19 : FVec F S400000 .f32 := Host.absf main_arg4
  let main_cst_6 : FVec F S_ .f32 := constant S_ .f32 0x7F800000#32
  let main_v20 : FVec F S400000 .f32 := broadcastInDim S400000 ![] bcast_S_S400000 main_cst_6
  let main_v21 : IVec S400000 1 := cmpf .olt main_v19 main_v20
  let main_c_7 : IVec S_ 1 := constantI S_ 1 1#1
  let main_v22 : IVec S_ 1 := (fun x v => Host.reduce IntOp.andi x v reducesTo_S400000_S_d0 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg10
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg11 main_arg12 main_arg13 main_arg14 main_arg15 main_arg16 main_v33

def fn {F : FTy → Type} [FloatOps F] (main_arg0 : FVec F S50000x256 .f32) (main_arg1 : FVec F S100000x128 .f32) (main_arg2 : FVec F S100000x128 .f32) (main_arg3 : FVec F S400000 .f32) (main_arg4 : FVec F S400000 .f32) (main_arg5 : IVec S400000 32) (main_arg6 : IVec S400000 32) (main_arg7 : IVec S400000 32) (main_arg8 : IVec S400000 32) (main_arg9 : FVec F S128x256 .f32) (main_arg10 : FVec F S128x256 .f32) (main_arg11 : FVec F S3x256x256 .f32) (main_arg12 : FVec F S3x256 .f32) (main_arg13 : FVec F S3x256x256 .f32) (main_arg14 : FVec F S3x256 .f32) (main_arg15 : FVec F S512x256 .f32) (main_arg16 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S400000 .f32 := Host.absf main_arg3
  let main_cst_4 : FVec F S_ .f32 := constant S_ .f32 0x7F800000#32
  let main_v15 : FVec F S400000 .f32 := broadcastInDim S400000 ![] bcast_S_S400000 main_cst_4
  let main_v16 : IVec S400000 1 := cmpf .olt main_v14 main_v15
  fn_part1 (F := F) main_arg4 main_arg9 main_arg10 main_arg11 main_arg12 main_arg13 main_arg14 main_arg15 main_arg16 main_v13 main_v16
-- ==== Kernel.lean ====
abbrev S50000x256 : Shape := ⟨2, ![50000, 256]⟩
abbrev S100000x128 : Shape := ⟨2, ![100000, 128]⟩
abbrev S400000 : Shape := ⟨1, ![400000]⟩
abbrev S128x256 : Shape := ⟨2, ![128, 256]⟩
abbrev S3x256x256 : Shape := ⟨3, ![3, 256, 256]⟩
abbrev S3x256 : Shape := ⟨2, ![3, 256]⟩
abbrev S512x256 : Shape := ⟨2, ![512, 256]⟩
abbrev S256 : Shape := ⟨1, ![256]⟩
abbrev S100000x256 : Shape := ⟨2, ![100000, 256]⟩
abbrev S5000x128 : Shape := ⟨2, ![5000, 128]⟩
abbrev S5000x256 : Shape := ⟨2, ![5000, 256]⟩
abbrev S400000x1 : Shape := ⟨2, ![400000, 1]⟩
abbrev S_ : Shape := ⟨0, ![]⟩
abbrev S400000x256 : Shape := ⟨2, ![400000, 256]⟩
abbrev S256x256 : Shape := ⟨2, ![256, 256]⟩
abbrev S1x256 : Shape := ⟨2, ![1, 256]⟩
abbrev S2000x256 : Shape := ⟨2, ![2000, 256]⟩
abbrev S1x256x256 : Shape := ⟨3, ![1, 256, 256]⟩

abbrev nBuf : Space → Nat
  | .hbm => 57
  | .vmem => 25
  | .smem => 0
  | _ => 0

abbrev bufTy : (tb : Table) → Fin (tcTables nBuf tb) → BufTy
  | .hbm, ⟨0, _⟩ => ⟨S50000x256, .f32⟩
  | .hbm, ⟨1, _⟩ => ⟨S100000x128, .f32⟩
  | .hbm, ⟨2, _⟩ => ⟨S100000x128, .f32⟩
  | .hbm, ⟨3, _⟩ => ⟨S400000, .f32⟩
  | .hbm, ⟨4, _⟩ => ⟨S400000, .f32⟩
  | .hbm, ⟨5, _⟩ => ⟨S400000, .i32⟩
  | .hbm, ⟨6, _⟩ => ⟨S400000, .i32⟩
  | .hbm, ⟨7, _⟩ => ⟨S400000, .i32⟩
  | .hbm, ⟨8, _⟩ => ⟨S400000, .i32⟩
  | .hbm, ⟨9, _⟩ => ⟨S128x256, .f32⟩
  | .hbm, ⟨10, _⟩ => ⟨S128x256, .f32⟩
  | .hbm, ⟨11, _⟩ => ⟨S3x256x256, .f32⟩
  | .hbm, ⟨12, _⟩ => ⟨S3x256, .f32⟩
  | .hbm, ⟨13, _⟩ => ⟨S3x256x256, .f32⟩
  | .hbm, ⟨14, _⟩ => ⟨S3x256, .f32⟩
  | .hbm, ⟨15, _⟩ => ⟨S512x256, .f32⟩
  | .hbm, ⟨16, _⟩ => ⟨S256, .f32⟩
  | .hbm, ⟨17, _⟩ => ⟨S100000x256, .bf16⟩
  | .hbm, ⟨18, _⟩ => ⟨S100000x256, .bf16⟩
  | .hbm, ⟨19, _⟩ => ⟨S400000x1, .f32⟩
  | .hbm, ⟨20, _⟩ => ⟨S_, .i32⟩
  | .hbm, ⟨21, _⟩ => ⟨S400000, .i32⟩
  | .hbm, ⟨22, _⟩ => ⟨S400000, .i1⟩
  | .hbm, ⟨23, _⟩ => ⟨S_, .i32⟩
  | .hbm, ⟨24, _⟩ => ⟨S400000, .i32⟩
  | .hbm, ⟨25, _⟩ => ⟨S400000, .i32⟩
  | .hbm, ⟨26, _⟩ => ⟨S400000, .i32⟩
  | .hbm, ⟨27, _⟩ => ⟨S400000x1, .i32⟩
  | .hbm, ⟨28, _⟩ => ⟨S400000x256, .bf16⟩
  | .hbm, ⟨29, _⟩ => ⟨S400000x256, .f32⟩
  | .hbm, ⟨30, _⟩ => ⟨S400000x256, .f32⟩
  | .hbm, ⟨31, _⟩ => ⟨S400000x256, .f32⟩
  | .hbm, ⟨32, _⟩ => ⟨S400000x1, .f32⟩
  | .hbm, ⟨33, _⟩ => ⟨S_, .i32⟩
  | .hbm, ⟨34, _⟩ => ⟨S400000, .i32⟩
  | .hbm, ⟨35, _⟩ => ⟨S400000, .i1⟩
  | .hbm, ⟨36, _⟩ => ⟨S_, .i32⟩
  | .hbm, ⟨37, _⟩ => ⟨S400000, .i32⟩
  | .hbm, ⟨38, _⟩ => ⟨S400000, .i32⟩
  | .hbm, ⟨39, _⟩ => ⟨S400000, .i32⟩
  | .hbm, ⟨40, _⟩ => ⟨S400000x1, .i32⟩
  | .hbm, ⟨41, _⟩ => ⟨S400000x256, .bf16⟩
  | .hbm, ⟨42, _⟩ => ⟨S400000x256, .f32⟩
  | .hbm, ⟨43, _⟩ => ⟨S400000x256, .f32⟩
  | .hbm, ⟨44, _⟩ => ⟨S400000x256, .f32⟩
  | .hbm, ⟨45, _⟩ => ⟨S_, .f32⟩
  | .hbm, ⟨46, _⟩ => ⟨S50000x256, .f32⟩
  | .hbm, ⟨47, _⟩ => ⟨S400000x1, .i32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S400000x1, .i32⟩
  | .hbm, ⟨52, _⟩ => ⟨S50000x256, .f32⟩
  | .hbm, ⟨53, _⟩ => ⟨S256x256, .f32⟩
  | .hbm, ⟨54, _⟩ => ⟨S256x256, .f32⟩
  | .hbm, ⟨55, _⟩ => ⟨S1x256, .f32⟩
  | .hbm, ⟨56, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .bf16⟩
  | .local _ .vmem, ⟨4, _⟩ => ⟨S5000x256, .bf16⟩
  | .local _ .vmem, ⟨5, _⟩ => ⟨S5000x128, .f32⟩
  | .local _ .vmem, ⟨6, _⟩ => ⟨S5000x128, .f32⟩
  | .local _ .vmem, ⟨7, _⟩ => ⟨S128x256, .f32⟩
  | .local _ .vmem, ⟨8, _⟩ => ⟨S5000x256, .bf16⟩
  | .local _ .vmem, ⟨9, _⟩ => ⟨S5000x256, .bf16⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S3x256x256, .f32⟩
  | .local _ .vmem, ⟨17, _⟩ => ⟨S3x256, .f32⟩
  | .local _ .vmem, ⟨18, _⟩ => ⟨S3x256x256, .f32⟩
  | .local _ .vmem, ⟨19, _⟩ => ⟨S3x256, .f32⟩
  | .local _ .vmem, ⟨20, _⟩ => ⟨S256x256, .f32⟩
  | .local _ .vmem, ⟨21, _⟩ => ⟨S256x256, .f32⟩
  | .local _ .vmem, ⟨22, _⟩ => ⟨S1x256, .f32⟩
  | .local _ .vmem, ⟨23, _⟩ => ⟨S2000x256, .f32⟩
  | .local _ .vmem, ⟨24, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg10_0 : Ref sig .tc := ⟨.vmem, 23, rfl⟩
abbrev cc2_stg10_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem10_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  slices_S512x256_S256x256_0_0 : S512x256.Slices ![0, 0] S256x256
  slices_S512x256_S256x256_256_0 : S512x256.Slices ![256, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256_S1x256_0_0 : ∀ a, (![0, 0] : Fin 2 → Nat) a + S1x256.size a ≤ S3x256.size a
  h_S1x256 : 0 < S1x256.numel
  shapeCasts_S1x256_S256 : S1x256.ShapeCasts S256
  broadcasts_S1x256_S2000x256 : S1x256.Broadcasts S2000x256
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  shapeCasts_S1x256_S1x256 : S1x256.ShapeCasts S1x256
  dot_S5000x128_S128x256_S5000x256_1_0_0_1_n_n_wf : DotDims.WF S5000x128 S128x256 S5000x256 [1] [0] [0] [1] [] []
  gather_S100000x256_S400000x1_S400000x256_1_0_n_n_0_1_1256_wf : GatherDims.WF S100000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .bf16 = 32 ∨ (Rect.block (s := S100000x256) S5000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .bf16 = 32 ∨ (Rect.block (s := S100000x256) S5000x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x256x256.size a ≤ S3x256x256.size a
  hwx2_3 : ∀ i : grid2.Coords, EltTy.bits .f32 = 32 ∨ (Rect.block (s := S3x256x256) S3x256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x256.size a ≤ S3x256.size a
  hwx2_4 : ∀ i : grid2.Coords, EltTy.bits .f32 = 32 ∨ (Rect.block (s := S3x256) S3x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x256x256.size a ≤ S3x256x256.size a
  hwx2_5 : ∀ i : grid2.Coords, EltTy.bits .f32 = 32 ∨ (Rect.block (s := S3x256x256) S3x256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3x256.size a ≤ S3x256.size a
  hwx2_6 : ∀ i : grid2.Coords, EltTy.bits .f32 = 32 ∨ (Rect.block (s := S3x256) S3x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .f32 = 32 ∨ (Rect.block (s := S256x256) S256x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S256x256.size a
  hwx2_8 : ∀ i : grid2.Coords, EltTy.bits .f32 = 32 ∨ (Rect.block (s := S256x256) S256x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x256.size a ≤ S50000x256.size a
  hwx2_10 : ∀ i : grid2.Coords, EltTy.bits .f32 = 32 ∨ (Rect.block (s := S50000x256) S2000x256.size (cc2_transform_10 i) (hinb2_10 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v26) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S3x256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S3x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S3x256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S3x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v30) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v31) S256x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v32) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v33) S2000x256.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x256 : Shape := ⟨2, ![50000, 256]⟩
abbrev S100000x128 : Shape := ⟨2, ![100000, 128]⟩
abbrev S400000 : Shape := ⟨1, ![400000]⟩
abbrev S128x256 : Shape := ⟨2, ![128, 256]⟩
abbrev S3x256x256 : Shape := ⟨3, ![3, 256, 256]⟩
abbrev S3x256 : Shape := ⟨2, ![3, 256]⟩
abbrev S512x256 : Shape := ⟨2, ![512, 256]⟩
abbrev S256 : Shape := ⟨1, ![256]⟩
abbrev S100000x256 : Shape := ⟨2, ![100000, 256]⟩
abbrev S400000x1 : Shape := ⟨2, ![400000, 1]⟩
abbrev S_ : Shape := ⟨0, ![]⟩
abbrev S400000x256 : Shape := ⟨2, ![400000, 256]⟩
abbrev S1x256x256 : Shape := ⟨3, ![1, 256, 256]⟩
abbrev S256x256 : Shape := ⟨2, ![256, 256]⟩
abbrev S1x256 : Shape := ⟨2, ![1, 256]⟩
abbrev S50000x512 : Shape := ⟨2, ![50000, 512]⟩

abbrev nBuf : Space → Nat
  | .hbm => 130
  | .vmem => 0
  | .smem => 0
  | _ => 0

abbrev hbmTy0_0 (i : Nat) : BufTy := match i % 128 with
  | 0 => ⟨S50000x256, .f32⟩
  | 1 => ⟨S100000x128, .f32⟩
  | 2 => ⟨S100000x128, .f32⟩
  | 3 => ⟨S400000, .f32⟩
  | 4 => ⟨S400000, .f32⟩
  | 5 => ⟨S400000, .i32⟩
  | 6 => ⟨S400000, .i32⟩
  | 7 => ⟨S400000, .i32⟩
  | 8 => ⟨S400000, .i32⟩
  | 9 => ⟨S128x256, .f32⟩
  | 10 => ⟨S128x256, .f32⟩
  | 11 => ⟨S3x256x256, .f32⟩
  | 12 => ⟨S3x256, .f32⟩
  | 13 => ⟨S3x256x256, .f32⟩
  | 14 => ⟨S3x256, .f32⟩
  | 15 => ⟨S512x256, .f32⟩
  | 16 => ⟨S256, .f32⟩
  | 17 => ⟨S100000x256, .f32⟩
  | 18 => ⟨S400000x1, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x256, .f32⟩
  | 28 => ⟨S400000x256, .f32⟩
  | 29 => ⟨S400000x256, .f32⟩
  | 30 => ⟨S_, .f32⟩
  | 31 => ⟨S50000x256, .f32⟩
  | 32 => ⟨S400000x1, .i32⟩
  | 33 => ⟨S50000x256, .f32⟩
  | 34 => ⟨S_, .f32⟩
  | 35 => ⟨S50000x256, .f32⟩
  | 36 => ⟨S50000x256, .f32⟩
  | 37 => ⟨S50000x256, .f32⟩
  | 38 => ⟨S1x256x256, .f32⟩
  | 39 => ⟨S256x256, .f32⟩
  | 40 => ⟨S50000x256, .f32⟩
  | 41 => ⟨S1x256, .f32⟩
  | 42 => ⟨S256, .f32⟩
  | 43 => ⟨S1x256, .f32⟩
  | 44 => ⟨S50000x256, .f32⟩
  | 45 => ⟨S50000x256, .f32⟩
  | 46 => ⟨S_, .f32⟩
  | 47 => ⟨S50000x256, .f32⟩
  | 48 => ⟨S50000x256, .f32⟩
  | 49 => ⟨S1x256x256, .f32⟩
  | 50 => ⟨S256x256, .f32⟩
  | 51 => ⟨S50000x256, .f32⟩
  | 52 => ⟨S1x256, .f32⟩
  | 53 => ⟨S256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S1x256x256, .f32⟩
  | 61 => ⟨S256x256, .f32⟩
  | 62 => ⟨S50000x256, .f32⟩
  | 63 => ⟨S1x256, .f32⟩
  | 64 => ⟨S256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S100000x256, .f32⟩
  | 72 => ⟨S400000x1, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x256, .f32⟩
  | 82 => ⟨S400000x256, .f32⟩
  | 83 => ⟨S400000x256, .f32⟩
  | 84 => ⟨S_, .f32⟩
  | 85 => ⟨S50000x256, .f32⟩
  | 86 => ⟨S400000x1, .i32⟩
  | 87 => ⟨S50000x256, .f32⟩
  | 88 => ⟨S_, .f32⟩
  | 89 => ⟨S50000x256, .f32⟩
  | 90 => ⟨S50000x256, .f32⟩
  | 91 => ⟨S50000x256, .f32⟩
  | 92 => ⟨S1x256x256, .f32⟩
  | 93 => ⟨S256x256, .f32⟩
  | 94 => ⟨S50000x256, .f32⟩
  | 95 => ⟨S1x256, .f32⟩
  | 96 => ⟨S256, .f32⟩
  | 97 => ⟨S1x256, .f32⟩
  | 98 => ⟨S50000x256, .f32⟩
  | 99 => ⟨S50000x256, .f32⟩
  | 100 => ⟨S_, .f32⟩
  | 101 => ⟨S50000x256, .f32⟩
  | 102 => ⟨S50000x256, .f32⟩
  | 103 => ⟨S1x256x256, .f32⟩
  | 104 => ⟨S256x256, .f32⟩
  | 105 => ⟨S50000x256, .f32⟩
  | 106 => ⟨S1x256, .f32⟩
  | 107 => ⟨S256, .f32⟩
  | 108 => ⟨S1x256, .f32⟩
  | 109 => ⟨S50000x256, .f32⟩
  | 110 => ⟨S50000x256, .f32⟩
  | 111 => ⟨S_, .f32⟩
  | 112 => ⟨S50000x256, .f32⟩
  | 113 => ⟨S50000x256, .f32⟩
  | 114 => ⟨S1x256x256, .f32⟩
  | 115 => ⟨S256x256, .f32⟩
  | 116 => ⟨S50000x256, .f32⟩
  | 117 => ⟨S1x256, .f32⟩
  | 118 => ⟨S256, .f32⟩
  | 119 => ⟨S1x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S50000x512, .f32⟩
  | 126 => ⟨S50000x256, .f32⟩
  | 127 => ⟨S1x256, .f32⟩
  | _ => ⟨S50000x256, .f32⟩

abbrev hbmTy0_1 (i : Nat) : BufTy := match i % 128 with
  | 0 => ⟨S50000x256, .f32⟩
  | 1 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call0_cst : Ref sig .tc := ⟨.hbm, 46, rfl⟩
abbrev main_call0_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_cst : Ref sig .tc := ⟨.hbm, 57, rfl⟩
abbrev main_call1_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call2_cst : Ref sig .tc := ⟨.hbm, 68, rfl⟩
abbrev main_call2_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_2 : Ref sig .tc := ⟨.hbm, 73, rfl⟩
abbrev main_v46 : Ref sig .tc := ⟨.hbm, 74, rfl⟩
abbrev main_v47 : Ref sig .tc := ⟨.hbm, 75, rfl⟩
abbrev main_c_3 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_4 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call3_cst : Ref sig .tc := ⟨.hbm, 100, rfl⟩
abbrev main_call3_v0 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call4_cst : Ref sig .tc := ⟨.hbm, 111, rfl⟩
abbrev main_call4_v0 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call5_cst : Ref sig .tc := ⟨.hbm, 122, rfl⟩
abbrev main_call5_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  concatenates_S50000x256_S50000x256_S50000x512_d1 : Shape.Concatenates [S50000x256, S50000x256] S50000x512 1
  dot_S100000x128_S128x256_S100000x256_1_0_0_1_n_n_wf : DotDims.WF S100000x128 S128x256 S100000x256 [1] [0] [0] [1] [] []
  gather_S100000x256_S400000x1_S400000x256_1_0_n_n_0_1_1256_wf : GatherDims.WF S100000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []
  dot_S50000x512_S512x256_S50000x256_1_0_0_1_n_n_wf : DotDims.WF S50000x512 S512x256 S50000x256 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.KernelRun.lean ====
/- The run of @main on the TensorCores, with the value of its result.

   From any launch memory `m` with zero counters and any generator registers `ρ`, every weakly fair execution of
   @main terminates without fault, and in every final state, on every core `c`:
   * the result array `main_v33` (the 50000 × 256 array the third region writes) holds the contents the boundary
     fold `Gen.W4 m ρ c` assigns to it — the launch memory carried through region 0, region 1, the host stretch
     between regions 1 and 2, and region 2, each region's arrays taken at what its write-backs leave;
   * each of the 17 argument arrays holds what it held at launch.
   `W4_out` then names the first value: `main_v33` is array 10 of the third region, so `Gen.W4` at it is that
   region's proof data's array 10 after all `cfg2.N` grid points, read from the entry contents `Gen.V3 m ρ`. -/
import proofs.«119904_j1425929142863_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run lemma's implicit arguments are found by unifying its conclusion with this one, which takes unfolding
-- plain definitions in a metavariable's type
set_option backward.isDefEq.respectTransparency.types false in
/-- Every weakly fair execution of @main from `⟨m, 0, ρ⟩` terminates, nothing faulting, and every final state has, on
    every core, the result array at the last boundary's contents `Gen.W4 m ρ c` and the 17 argument arrays as launched.
    The last thread state holds every unscoped buffer at `Gen.W4 m ρ c`; read against the final state this gives the
    memory at each such buffer: `main_v33` directly, each argument through `Gen.W4_main_arg<k>`. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v33) = Gen.W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c)⟩)

/-- The result array is array 10 of the third region (`Pipeline.arrRef spec2 10 = main_v33`, by unfolding), so the last
    boundary's contents at it are what that region's write-backs leave: its proof data's array 10 after all grid points. -/
theorem W4_out (m : (ℓ : Loc nD τ sig) → Buf (Elt F) ℓ) (ρ : Dev nD → PrngReg) (c : Dev nD) :
    Gen.W4 m ρ c (Proc.devRef .tc main_v33) = (Gen.dat2 (Gen.V3 m ρ) c).arrAt 10 cfg2.N :=
  Gen.W4_arr m ρ c 10

end Cert.KernelIdeal.RunValue

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Spec.lean ====
/-
  The mathematics both programs compute after the sparse aggregation, as functions of arrays of extended reals.
  A dense layer of a row-wise network: h ↦ max(h·W + b, 0), the bias b a row repeated down the rows.  Three such
  layers with the weights W[l] and biases b[l] taken from stacked arrays.  And the merged output
  (mlp(a0 + t)·Wm0 + mlp(a1 + t)·Wm1) + bm.  Every one of them is row-local: row p of the result depends on row p
  of the row-indexed arguments only, which is why a block of rows of the result is the same function of the
  matching blocks of rows.
-/
import proofs.«119904_j1425929142863_2_alg».proof.Proof.LibMatmul

noncomputable section

open scoped BigOperators

namespace Cert.Spec

open Idealize.ShloMosaic Idealize.ShloMosaic.ValueIdx Cert.LibMatmul

/-- Matrix l of a stack of three 256 × 256 matrices. -/
def slab (W : (⟨3, ![3, 256, 256]⟩ : Shape).Idx → EReal) (l : Fin 3) : (⟨2, ![256, 256]⟩ : Shape).Idx → EReal :=
  fun i => W (ix3 l (i 0) (i 1))

/-- Row l of a stack of three length-256 rows. -/
def brow (b : (⟨2, ![3, 256]⟩ : Shape).Idx → EReal) (l : Fin 3) : Fin 256 → EReal :=
  fun q => b (ix2 l q)

/-- One dense layer with a rectifier: max(h·W + b, 0), the zero kept as the word both programs print. -/
def dense {A : Nat} (h : (⟨2, ![A, 256]⟩ : Shape).Idx → EReal) (W : (⟨2, ![256, 256]⟩ : Shape).Idx → EReal)
    (b : Fin 256 → EReal) : (⟨2, ![A, 256]⟩ : Shape).Idx → EReal :=
  fun i => max (MM h W i + b (i 1)) (Ideal.ofBits .f32 0x00000000#32)

/-- Three dense layers, weights and biases from the stacked arrays. -/
def mlp3 {A : Nat} (h : (⟨2, ![A, 256]⟩ : Shape).Idx → EReal) (W : (⟨3, ![3, 256, 256]⟩ : Shape).Idx → EReal)
    (b : (⟨2, ![3, 256]⟩ : Shape).Idx → EReal) : (⟨2, ![A, 256]⟩ : Shape).Idx → EReal :=
  dense (dense (dense h (slab W 0) (brow b 0)) (slab W 1) (brow b 1)) (slab W 2) (brow b 2)

/-- The merged output: (mlp(a0 + t)·Wm0 + mlp(a1 + t)·Wm1) + bm. -/
def merged {A : Nat} (a0 a1 t : (⟨2, ![A, 256]⟩ : Shape).Idx → EReal)
    (W0 : (⟨3, ![3, 256, 256]⟩ : Shape).Idx → EReal) (b0 : (⟨2, ![3, 256]⟩ : Shape).Idx → EReal)
    (W1 : (⟨3, ![3, 256, 256]⟩ : Shape).Idx → EReal) (b1 : (⟨2, ![3, 256]⟩ : Shape).Idx → EReal)
    (Wm0 Wm1 : (⟨2, ![256, 256]⟩ : Shape).Idx → EReal) (bm : Fin 256 → EReal) : (⟨2, ![A, 256]⟩ : Shape).Idx → EReal :=
  fun i => (MM (mlp3 (fun j => a0 j + t j) W0 b0) Wm0 i + MM (mlp3 (fun j => a1 j + t j) W1 b1) Wm1 i) + bm (i 1)

theorem dense_apply {A : Nat} (h : (⟨2, ![A, 256]⟩ : Shape).Idx → EReal) (W : (⟨2, ![256, 256]⟩ : Shape).Idx → EReal)
    (b : Fin 256 → EReal) (p : Fin A) (q : Fin 256) :
    dense h W b (ix2 p q) = max (MM h W (ix2 p q) + b q) (Ideal.ofBits .f32 0x00000000#32) := rfl

theorem merged_apply {A : Nat} (a0 a1 t : (⟨2, ![A, 256]⟩ : Shape).Idx → EReal)
    (W0 : (⟨3, ![3, 256, 256]⟩ : Shape).Idx → EReal) (b0 : (⟨2, ![3, 256]⟩ : Shape).Idx → EReal)
    (W1 : (⟨3, ![3, 256, 256]⟩ : Shape).Idx → EReal) (b1 : (⟨2, ![3, 256]⟩ : Shape).Idx → EReal)
    (Wm0 Wm1 : (⟨2, ![256, 256]⟩ : Shape).Idx → EReal) (bm : Fin 256 → EReal) (p : Fin A) (q : Fin 256) :
    merged a0 a1 t W0 b0 W1 b1 Wm0 Wm1 bm (ix2 p q)
      = (MM (mlp3 (fun j => a0 j + t j) W0 b0) Wm0 (ix2 p q) + MM (mlp3 (fun j => a1 j + t j) W1 b1) Wm1 (ix2 p q)) + bm q := rfl

/-- A row of a matrix product depends on that row of the left factor only. -/
theorem MM_rowLocal {A A' K B : Nat} (x : (⟨2, ![A, K]⟩ : Shape).Idx → EReal) (x' : (⟨2, ![A', K]⟩ : Shape).Idx → EReal)
    (w : (⟨2, ![K, B]⟩ : Shape).Idx → EReal) (p : Fin A) (p' : Fin A')
    (hx : ∀ k : Fin K, x (ix2 p k) = x' (ix2 p' k)) (q : Fin B) : MM x w (ix2 p q) = MM x' w (ix2 p' q) := by
  rw [MM_apply, MM_apply]
  exact Finset.sum_congr rfl fun k _ => by rw [hx k]

/-- A dense layer is row-local. -/
theorem dense_rowLocal {A A' : Nat} (h : (⟨2, ![A, 256]⟩ : Shape).Idx → EReal) (h' : (⟨2, ![A', 256]⟩ : Shape).Idx → EReal)
    (W : (⟨2, ![256, 256]⟩ : Shape).Idx → EReal) (b : Fin 256 → EReal) (p : Fin A) (p' : Fin A')
    (hx : ∀ k : Fin 256, h (ix2 p k) = h' (ix2 p' k)) (q : Fin 256) : dense h W b (ix2 p q) = dense h' W b (ix2 p' q) := by
  rw [dense_apply, dense_apply, MM_rowLocal h h' W p p' hx q]

/-- Three dense layers are row-local. -/
theorem mlp3_rowLocal {A A' : Nat} (h : (⟨2, ![A, 256]⟩ : Shape).Idx → EReal) (h' : (⟨2, ![A', 256]⟩ : Shape).Idx → EReal)
    (W : (⟨3, ![3, 256, 256]⟩ : Shape).Idx → EReal) (b : (⟨2, ![3, 256]⟩ : Shape).Idx → EReal) (p : Fin A) (p' : Fin A')
    (hx : ∀ k : Fin 256, h (ix2 p k) = h' (ix2 p' k)) (q : Fin 256) : mlp3 h W b (ix2 p q) = mlp3 h' W b (ix2 p' q) :=
  dense_rowLocal _ _ _ _ p p' (fun k => dense_rowLocal _ _ _ _ p p' (fun k' => dense_rowLocal _ _ _ _ p p' hx k') k) q

/-- The merged output is row-local: a row of it over A rows is the same row of it over A' rows when the three
    row-indexed arguments agree on that row. -/
theorem merged_rowLocal {A A' : Nat} (a0 a1 t : (⟨2, ![A, 256]⟩ : Shape).Idx → EReal)
    (a0' a1' t' : (⟨2, ![A', 256]⟩ : Shape).Idx → EReal)
    (W0 : (⟨3, ![3, 256, 256]⟩ : Shape).Idx → EReal) (b0 : (⟨2, ![3, 256]⟩ : Shape).Idx → EReal)
    (W1 : (⟨3, ![3, 256, 256]⟩ : Shape).Idx → EReal) (b1 : (⟨2, ![3, 256]⟩ : Shape).Idx → EReal)
    (Wm0 Wm1 : (⟨2, ![256, 256]⟩ : Shape).Idx → EReal) (bm : Fin 256 → EReal) (p : Fin A) (p' : Fin A')
    (h0 : ∀ k : Fin 256, a0 (ix2 p k) = a0' (ix2 p' k)) (h1 : ∀ k : Fin 256, a1 (ix2 p k) = a1' (ix2 p' k))
    (ht : ∀ k : Fin 256, t (ix2 p k) = t' (ix2 p' k)) (q : Fin 256) :
    merged a0 a1 t W0 b0 W1 b1 Wm0 Wm1 bm (ix2 p q) = merged a0' a1' t' W0 b0 W1 b1 Wm0 Wm1 bm (ix2 p' q) := by
  rw [merged_apply, merged_apply,
    MM_rowLocal (mlp3 (fun j => a0 j + t j) W0 b0) (mlp3 (fun j => a0' j + t' j) W0 b0) Wm0 p p'
      (fun k => mlp3_rowLocal (fun j => a0 j + t j) (fun j => a0' j + t' j) W0 b0 p p'
        (fun k' => by show a0 _ + t _ = a0' _ + t' _; rw [h0 k', ht k']) k) q,
    MM_rowLocal (mlp3 (fun j => a1 j + t j) W1 b1) (mlp3 (fun j => a1' j + t' j) W1 b1) Wm1 p p'
      (fun k => mlp3_rowLocal (fun j => a1 j + t j) (fun j => a1' j + t' j) W1 b1 p p'
        (fun k' => by show a1 _ + t _ = a1' _ + t' _; rw [h1 k', ht k']) k) q]

end Cert.Spec

end
-- ==== Proof.Support.lean ====
/-
  The two projections that open the kernel.  Each multiplies an array of 100000 rows of length 128 by a 128 × 256
  weight, twenty blocks of 5000 rows at a time: at grid point t the body loads rows 5000·t … 5000·t + 4999 of the left
  array and the whole weight, narrows both (the identity on extended reals), multiplies them into the zero accumulator,
  narrows the result and stores it as rows 5000·t … 5000·t + 4999 of the output.  A row of a matrix product depends on
  that row of the left factor only, so block t of the output is block t of the product of the whole arrays; the twenty
  blocks cover the output (row r lies in block r / 5000), so after the region the output array is the product
  x · w of the two arrays as the region found them, index by index the sum over k of x(p, k) · w(k, q).
-/
import proofs.«119904_j1425929142863_2_alg».proof.Proof.Gen.KernelIdeal.Frame
import proofs.«119904_j1425929142863_2_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Support

open Cert.KernelIdeal Cert.KernelIdeal.Gen Idealize.ShloMosaic.ValueIdx Cert.LibMatmul

variable (V : (c : Dev nD) → (b : Ref sig .tc) → Buf (Elt Ideal) ((c : Thread nD τ).loc b))

/-- The zero offset of a rank-2 rectangle. -/
theorem zero_off : (![0, 0] : Fin 2 → Nat) = fun _ => 0 := funext fun a => by fin_cases a <;> rfl

/-! ## Region 0: main_v0 = main_arg1 · main_arg9, twenty blocks of 5000 rows -/

/-- One block of the product: the body narrows both operands (the identity on extended reals), multiplies into the
    zero accumulator and narrows the result, so what it stores is the matrix product of the two blocks it loaded. -/
theorem block_product0 (x0 : Vec Ideal S5000x128 .f32) (x1 : Vec Ideal S128x256 .f32) :
    Gen.out0_2 (F := Ideal) x0 x1 = (MM x0 x1 : S5000x256.Idx → EReal) := by
  unfold Gen.out0_2
  rw [View.canon_unit_zero zero_off]
  simp only [View.ld_unit_zero (S := S5000x128) zero_off, View.ld_unit_zero (S := S128x256) zero_off]
  unfold k0_pay1
  exact matmul_zero_eq dot_S5000x128_S128x256_S5000x256_1_0_0_1_n_n rfl rfl rfl rfl rfl rfl none (φ₁ := .bf16) (φ₂ := .bf16) x0 x1

/-- The block indices over the grid: at point t the left operand's and the result's blocks are block row t, column 0;
    the weight's block is always (0, 0). -/
theorem block_index0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row p of point t's block of the left operand is row 5000·t + p of the array. -/
theorem left_row0 (c : Dev nD) (t : Fin cfg0.N) (p : Fin 5000) (k : Fin 128) (r : Fin 100000)
    (hr : r.val = 5000 * t.val + p.val) :
    (Gen.iblk0 V c 0 t : S5000x128.Idx → EReal) (ix2 p k) = (V c main_arg1 : S100000x128.Idx → EReal) (ix2 r k) := by
  obtain ⟨e0, e1, -, -, -, -⟩ := block_index0 t
  show V c main_arg1 (((cfg0.win 0).blk t).view.emb (ix2 p k)) = V c main_arg1 (ix2 r k)
  refine congrArg _ ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Every point's block of the weight is the whole weight. -/
theorem weight_block0 (c : Dev nD) (t : Fin cfg0.N) :
    (Gen.iblk0 V c 1 t : S128x256.Idx → EReal) = (V c main_arg9 : S128x256.Idx → EReal) := by
  obtain ⟨-, -, e2, e3, -, -⟩ := block_index0 t
  funext y
  show V c main_arg9 (((cfg0.win 1).blk t).view.emb y) = V c main_arg9 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- What point t writes back is block t of the product of the whole arrays: a row of a product depends on that row of
    the left factor only. -/
theorem flushed_product0 (c : Dev nD) (t : Fin cfg0.N) :
    (Gen.dat0 (F := Ideal) V c).flushed 2 t
      = ((cfg0.win 2).blk t).view.read (Elt Ideal)
          (MM (A := 100000) (K := 128) (B := 256) (V c main_arg1) (V c main_arg9) : S100000x256.Idx → EReal) := by
  show (cfg0.win 2).cut (grid0.coords t) ((Gen.dat0 V c).after 2 t) = _
  rw [Gen.after0_2]
  obtain ⟨-, -, -, -, e4, e5⟩ := block_index0 t
  have hN : grid0.N = 20 := N_0
  have ht : t.val < 20 := hN ▸ t.isLt
  funext j
  have hj0 : (j 0).val < 5000 := (j 0).isLt
  show Gen.out0_2 (Gen.iblk0 V c 0 t) (Gen.iblk0 V c 1 t) j
    = MM (A := 100000) (K := 128) (B := 256) (V c main_arg1) (V c main_arg9) (((cfg0.win 2).blk t).view.emb j)
  have he : ((cfg0.win 2).blk t).view.emb j
      = (ix2 (⟨5000 * t.val + (j 0).val, by omega⟩ : Fin 100000) (j 1) : S100000x256.Idx) := by
    funext a; apply Fin.ext
    match a with
    | ⟨0, _⟩ => show win0_2.index t (0 : Fin 2) * 5000 + 1 * (j 0).val = 5000 * t.val + (j 0).val; omega
    | ⟨1, _⟩ => show win0_2.index t (1 : Fin 2) * 256 + 1 * (j 1).val = (j 1).val; omega
  refine (congrFun (block_product0 _ _) j).trans ?_
  refine (congrArg (MM (A := 5000) (K := 128) (B := 256) (Gen.iblk0 V c 0 t) (Gen.iblk0 V c 1 t)) (eq_ix2 j)).trans ?_
  refine Eq.trans ?_ (congrArg (MM (A := 100000) (K := 128) (B := 256) (V c main_arg1) (V c main_arg9)) he.symm)
  rw [weight_block0 V c t]
  exact Cert.Spec.MM_rowLocal _ _ _ (j 0) _ (fun k => left_row0 V c t (j 0) k _ rfl) (j 1)

/-- An index of the result is in point t's block iff each coordinate is in the block's range on its axis. -/
theorem mem_block0 (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v0).slice (win0_2.rect t)).set ↔ _
  rw [View.set_slice_whole, Rect.mem_set_unit]
  exact Iff.rfl

/-- The twenty blocks cover the result: row r is in the block of point r / 5000. -/
theorem cover0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : grid0.N = 20 := N_0
  have hlt : (i 0).val / 5000 < grid0.N := by rw [hN]; omega
  refine ⟨⟨(i 0).val / 5000, hlt⟩, flush0_2 _, ?_⟩
  rw [mem_block0]
  obtain ⟨-, -, -, -, e4, e5⟩ := block_index0 ⟨(i 0).val / 5000, hlt⟩
  have e4' : win0_2.index ⟨(i 0).val / 5000, hlt⟩ (0 : Fin 2) = (i 0).val / 5000 := e4
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 256 ≤ (i 1).val ∧ (i 1).val < win0_2.index ⟨(i 0).val / 5000, hlt⟩ (1 : Fin 2) * 256 + 256; omega

/-- After the region the result array is the product of the two arrays as the region found them. -/
theorem support0 (c : Dev nD) :
    (Gen.dat0 (F := Ideal) V c).arrAt 2 cfg0.N
      = (MM (A := 100000) (K := 128) (B := 256) (V c main_arg1) (V c main_arg9) : S100000x256.Idx → EReal) :=
  (Gen.dat0 (F := Ideal) V c).arrAt_eq_of_cover 2
    (MM (A := 100000) (K := 128) (B := 256) (V c main_arg1) (V c main_arg9) : S100000x256.Idx → EReal)
    (fun t _ => flushed_product0 V c t) cover0

/-! ## Region 1: main_v1 = main_arg2 · main_arg10, twenty blocks of 5000 rows -/

/-- One block of the product: the body narrows both operands (the identity on extended reals), multiplies into the
    zero accumulator and narrows the result, so what it stores is the matrix product of the two blocks it loaded. -/
theorem block_product1 (x0 : Vec Ideal S5000x128 .f32) (x1 : Vec Ideal S128x256 .f32) :
    Gen.out1_2 (F := Ideal) x0 x1 = (MM x0 x1 : S5000x256.Idx → EReal) := by
  unfold Gen.out1_2
  rw [View.canon_unit_zero zero_off]
  simp only [View.ld_unit_zero (S := S5000x128) zero_off, View.ld_unit_zero (S := S128x256) zero_off]
  unfold k1_pay1
  exact matmul_zero_eq dot_S5000x128_S128x256_S5000x256_1_0_0_1_n_n rfl rfl rfl rfl rfl rfl none (φ₁ := .bf16) (φ₂ := .bf16) x0 x1

/-- The block indices over the grid: at point t the left operand's and the result's blocks are block row t, column 0;
    the weight's block is always (0, 0). -/
theorem block_index1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Row p of point t's block of the left operand is row 5000·t + p of the array. -/
theorem left_row1 (c : Dev nD) (t : Fin cfg1.N) (p : Fin 5000) (k : Fin 128) (r : Fin 100000)
    (hr : r.val = 5000 * t.val + p.val) :
    (Gen.iblk1 V c 0 t : S5000x128.Idx → EReal) (ix2 p k) = (V c main_arg2 : S100000x128.Idx → EReal) (ix2 r k) := by
  obtain ⟨e0, e1, -, -, -, -⟩ := block_index1 t
  show V c main_arg2 (((cfg1.win 0).blk t).view.emb (ix2 p k)) = V c main_arg2 (ix2 r k)
  refine congrArg _ ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Every point's block of the weight is the whole weight. -/
theorem weight_block1 (c : Dev nD) (t : Fin cfg1.N) :
    (Gen.iblk1 V c 1 t : S128x256.Idx → EReal) = (V c main_arg10 : S128x256.Idx → EReal) := by
  obtain ⟨-, -, e2, e3, -, -⟩ := block_index1 t
  funext y
  show V c main_arg10 (((cfg1.win 1).blk t).view.emb y) = V c main_arg10 y
  refine congrArg _ ?_
  funext a; apply Fin.ext
  match a with
  | ⟨0, _⟩ => show win1_1.index t (0 : Fin 2) * 128 + 1 * (y 0).val = (y 0).val; omega
  | ⟨1, _⟩ => show win1_1.index t (1 : Fin 2) * 256 + 1 * (y 1).val = (y 1).val; omega

/-- What point t writes back is block t of the product of the whole arrays: a row of a product depends on that row of
    the left factor only. -/
theorem flushed_product1 (c : Dev nD) (t : Fin cfg1.N) :
    (Gen.dat1 (F := Ideal) V c).flushed 2 t
      = ((cfg1.win 2).blk t).view.read (Elt Ideal)
          (MM (A := 100000) (K := 128) (B := 256) (V c main_arg2) (V c main_arg10) : S100000x256.Idx → EReal) := by
  show (cfg1.win 2).cut (grid1.coords t) ((Gen.dat1 V c).after 2 t) = _
  rw [Gen.after1_2]
  obtain ⟨-, -, -, -, e4, e5⟩ := block_index1 t
  have hN : grid1.N = 20 := N_1
  have ht : t.val < 20 := hN ▸ t.isLt
  funext j
  have hj0 : (j 0).val < 5000 := (j 0).isLt
  show Gen.out1_2 (Gen.iblk1 V c 0 t) (Gen.iblk1 V c 1 t) j
    = MM (A := 100000) (K := 128) (B := 256) (V c main_arg2) (V c main_arg10) (((cfg1.win 2).blk t).view.emb j)
  have he : ((cfg1.win 2).blk t).view.emb j
      = (ix2 (⟨5000 * t.val + (j 0).val, by omega⟩ : Fin 100000) (j 1) : S100000x256.Idx) := by
    funext a; apply Fin.ext
    match a with
    | ⟨0, _⟩ => show win1_2.index t (0 : Fin 2) * 5000 + 1 * (j 0).val = 5000 * t.val + (j 0).val; omega
    | ⟨1, _⟩ => show win1_2.index t (1 : Fin 2) * 256 + 1 * (j 1).val = (j 1).val; omega
  refine (congrFun (block_product1 _ _) j).trans ?_
  refine (congrArg (MM (A := 5000) (K := 128) (B := 256) (Gen.iblk1 V c 0 t) (Gen.iblk1 V c 1 t)) (eq_ix2 j)).trans ?_
  refine Eq.trans ?_ (congrArg (MM (A := 100000) (K := 128) (B := 256) (V c main_arg2) (V c main_arg10)) he.symm)
  rw [weight_block1 V c t]
  exact Cert.Spec.MM_rowLocal _ _ _ (j 0) _ (fun k => left_row1 V c t (j 0) k _ rfl) (j 1)

/-- An index of the result is in point t's block iff each coordinate is in the block's range on its axis. -/
theorem mem_block1 (t : Fin cfg1.N) (i : S100000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v1).slice (win1_2.rect t)).set ↔ _
  rw [View.set_slice_whole, Rect.mem_set_unit]
  exact Iff.rfl

/-- The twenty blocks cover the result: row r is in the block of point r / 5000. -/
theorem cover1 (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  have hN : grid1.N = 20 := N_1
  have hlt : (i 0).val / 5000 < grid1.N := by rw [hN]; omega
  refine ⟨⟨(i 0).val / 5000, hlt⟩, flush1_2 _, ?_⟩
  rw [mem_block1]
  obtain ⟨-, -, -, -, e4, e5⟩ := block_index1 ⟨(i 0).val / 5000, hlt⟩
  have e4' : win1_2.index ⟨(i 0).val / 5000, hlt⟩ (0 : Fin 2) = (i 0).val / 5000 := e4
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000; omega
  | ⟨1, _⟩ => show win1_2.index ⟨(i 0).val / 5000, hlt⟩ (1 : Fin 2) * 256 ≤ (i 1).val ∧ (i 1).val < win1_2.index ⟨(i 0).val / 5000, hlt⟩ (1 : Fin 2) * 256 + 256; omega

/-- After the region the result array is the product of the two arrays as the region found them. -/
theorem support1 (c : Dev nD) :
    (Gen.dat1 (F := Ideal) V c).arrAt 2 cfg1.N
      = (MM (A := 100000) (K := 128) (B := 256) (V c main_arg2) (V c main_arg10) : S100000x256.Idx → EReal) :=
  (Gen.dat1 (F := Ideal) V c).arrAt_eq_of_cover 2
    (MM (A := 100000) (K := 128) (B := 256) (V c main_arg2) (V c main_arg10) : S100000x256.Idx → EReal)
    (fun t _ => flushed_product1 V c t) cover1

end Cert.KernelIdeal.Support

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.Fused.lean ====
/-
  The block the fused kernel body leaves, as the merged network of its ten input blocks, at the ideal values:
  a slab of a weight stack read through a unit-stride rectangle and its leading unit axis dropped; a row of a
  bias stack read through a unit-stride rectangle and repeated down the rows; one dense layer
  max(h·W + b, 0) whose matrix product runs through the identity format changes; and the body's block as
  (mlp(a0 + t)·Wm0 + mlp(a1 + t)·Wm1) + bm.
-/
import proofs.«119904_j1425929142863_2_alg».proof.Proof.Gen.KernelIdeal.Frame
import proofs.«119904_j1425929142863_2_alg».proof.Proof.Spec
import proofs.«119904_j1425929142863_2_alg».proof.Proof.LibRowOps
import Idealize.ShloMosaic.Lib.Pipeline.Value
import Idealize.ShloMosaic.Lib.ValueIdx
import Idealize.ShloMosaic.Lib.ValueLayout

noncomputable section

open scoped BigOperators

namespace Cert.KernelIdeal.Fused

open Idealize.ShloMosaic Idealize.ShloMosaic.ValueIdx Cert.LibMatmul
open Cert.KernelIdeal.Facts₀

/-- Slab l of a stack of three matrices, read through the unit-stride rectangle of one matrix at offset (l, 0, 0)
    and its leading unit axis dropped. -/
theorem slab_eq (W : Vec Ideal S3x256x256 .f32) (l : Fin 3) (off : Fin 3 → Nat) (h0 : off 0 = l.val) (h1 : off 1 = 0)
    (h2 : off 2 = 0) (inb : ∀ a, off a + S1x256x256.size a ≤ S3x256x256.size a) (h : S1x256x256.ShapeCasts S256x256) :
    shapeCast S256x256 (View.ld W (Rect.unit (s := S3x256x256) off S1x256x256.size inb)) h = Cert.Spec.slab W l := by
  funext i
  obtain ⟨k, q, rfl⟩ : ∃ (k : Fin 256) (q : Fin 256), i = ix2 k q := ⟨i 0, i 1, eq_ix2 i⟩
  refine (shapeCast_1ab_ab_apply _ h k q).trans ?_
  show W _ = W (ix3 l k q)
  refine congrArg W (funext fun a => Fin.ext ?_)
  match a with
  | ⟨0, _⟩ => show off 0 + 1 * 0 = l.val; omega
  | ⟨1, _⟩ => show off 1 + 1 * k.val = k.val; omega
  | ⟨2, _⟩ => show off 2 + 1 * q.val = q.val; omega

/-- Row l of a stack of three rows, read through the unit-stride rectangle of one row at offset (l, 0), flattened,
    laid out as one row again and repeated down the rows: at (p, c) it is entry c of row l. -/
theorem brow_eq {a : Nat} (b : Vec Ideal S3x256 .f32) (l : Fin 3) (off : Fin 2 → Nat) (h0 : off 0 = l.val) (h1 : off 1 = 0)
    (inb : ∀ a, off a + S1x256.size a ≤ S3x256.size a) (hc : S1x256.ShapeCasts S256) (hc' : S256.ShapeCasts S1x256)
    (hb : S1x256.Broadcasts ⟨2, ![a, 256]⟩) :
    broadcastTo ⟨2, ![a, 256]⟩ (shapeCast S1x256 (shapeCast S256 (View.ld b (Rect.unit (s := S3x256) off S1x256.size inb)) hc) hc') hb
      = fun i => Cert.Spec.brow b l (i 1) := by
  refine (Cert.LibRowOps.row_bcast _ hc' hb).trans ?_
  funext i
  refine (shapeCast_1a_a_apply _ hc (i 1)).trans ?_
  show b _ = b (ix2 l (i 1))
  refine congrArg b (funext fun a => Fin.ext ?_)
  match a with
  | ⟨0, _⟩ => show off 0 + 1 * 0 = l.val; omega
  | ⟨1, _⟩ => show off 1 + 1 * (i 1).val = (i 1).val; omega

/-- The matrix product of the kernel's layer: into the zero accumulator, through format changes that are the
    identity at the ideal values. -/
theorem mm_eq (h : FVec Ideal S2000x256 .f32) (W' : FVec Ideal S256x256 .f32) (hlt : FTy.bits .bf16 < FTy.bits .f32) :
    matmul dot_S2000x256_S256x256_S2000x256_1_0_0_1_n_n none (truncf .bf16 h hlt) (truncf .bf16 W' hlt)
        (constant S2000x256 .f32 0x00000000#32) = MM h W' :=
  Cert.LibMatmul.matmul_zero_eq dot_S2000x256_S256x256_S2000x256_1_0_0_1_n_n rfl rfl rfl rfl rfl rfl none
    (truncf .bf16 h hlt) (truncf .bf16 W' hlt)

/-- One dense layer of the kernel: max(h·W + b, 0). -/
theorem layer_eq (h : FVec Ideal S2000x256 .f32) (W' : FVec Ideal S256x256 .f32) (bb : FVec Ideal S2000x256 .f32)
    (hlt : FTy.bits .bf16 < FTy.bits .f32) :
    maximumf (addf (matmul dot_S2000x256_S256x256_S2000x256_1_0_0_1_n_n none (truncf .bf16 h hlt) (truncf .bf16 W' hlt)
        (constant S2000x256 .f32 0x00000000#32)) bb) (broadcast S2000x256 (Scalar.ofBits (F := Ideal) .f32 0x00000000#32))
      = fun i => max (MM h W' i + bb i) (Ideal.ofBits .f32 0x00000000#32) := by
  rw [mm_eq h W' hlt]
  rfl

/-- One row repeated down the rows holds, at (p, c), the row's entry c. -/
theorem row_rep {α : Type} {a b : ℕ} (v : (⟨2, ![1, b]⟩ : Shape).Idx → α) (h : (⟨2, ![1, b]⟩ : Shape).Broadcasts ⟨2, ![a, b]⟩) :
    broadcastTo ⟨2, ![a, b]⟩ v h = fun i => v (ix2 (0 : Fin 1) (i 1)) := by
  funext i
  exact (congrArg (broadcastTo ⟨2, ![a, b]⟩ v h) (eq_ix2 i)).trans (broadcastTo_1b_ab_apply v h (i 0) (i 1))

/-- The first payload of a branch: the sum a + t through two dense layers, then the third layer's matrix product. -/
theorem pay2_eq (t a : Vec Ideal S2000x256 .f32) (v4 v16 v28 : Vec Ideal S1x256x256 .f32) (v9 v21 : Vec Ideal S1x256 .f32)
    (W1 W2 W3 : (⟨2, ![256, 256]⟩ : Shape).Idx → EReal) (b1 b2 : Fin 256 → EReal)
    (hW1 : shapeCast S256x256 v4 shapeCasts_S1x256x256_S256x256 = W1)
    (hW2 : shapeCast S256x256 v16 shapeCasts_S1x256x256_S256x256 = W2)
    (hW3 : shapeCast S256x256 v28 shapeCasts_S1x256x256_S256x256 = W3)
    (hb1 : broadcastTo S2000x256 (shapeCast S1x256 (shapeCast S256 v9 shapeCasts_S1x256_S256) shapeCasts_S256_S1x256)
      broadcasts_S1x256_S2000x256 = fun i => b1 (i 1))
    (hb2 : broadcastTo S2000x256 (shapeCast S1x256 (shapeCast S256 v21 shapeCasts_S1x256_S256) shapeCasts_S256_S1x256)
      broadcasts_S1x256_S2000x256 = fun i => b2 (i 1)) :
    Gen.k2_pay2 (F := Ideal) t a v4 v9 v16 v21 v28
      = MM (Cert.Spec.dense (Cert.Spec.dense (fun j => a j + t j) W1 b1) W2 b2) W3 := by
  unfold Gen.k2_pay2
  simp only []
  rw [shapeCast_self, hW1, hW2, hW3, hb1, hb2, layer_eq, layer_eq, mm_eq]
  rfl

/-- The other branch's first payload: the same function of its own blocks. -/
theorem pay5_eq (t a : Vec Ideal S2000x256 .f32) (v4 v16 v28 : Vec Ideal S1x256x256 .f32) (v9 v21 : Vec Ideal S1x256 .f32)
    (W1 W2 W3 : (⟨2, ![256, 256]⟩ : Shape).Idx → EReal) (b1 b2 : Fin 256 → EReal)
    (hW1 : shapeCast S256x256 v4 shapeCasts_S1x256x256_S256x256 = W1)
    (hW2 : shapeCast S256x256 v16 shapeCasts_S1x256x256_S256x256 = W2)
    (hW3 : shapeCast S256x256 v28 shapeCasts_S1x256x256_S256x256 = W3)
    (hb1 : broadcastTo S2000x256 (shapeCast S1x256 (shapeCast S256 v9 shapeCasts_S1x256_S256) shapeCasts_S256_S1x256)
      broadcasts_S1x256_S2000x256 = fun i => b1 (i 1))
    (hb2 : broadcastTo S2000x256 (shapeCast S1x256 (shapeCast S256 v21 shapeCasts_S1x256_S256) shapeCasts_S256_S1x256)
      broadcasts_S1x256_S2000x256 = fun i => b2 (i 1)) :
    Gen.k2_pay5 (F := Ideal) t a v4 v9 v16 v21 v28
      = MM (Cert.Spec.dense (Cert.Spec.dense (fun j => a j + t j) W1 b1) W2 b2) W3 := by
  unfold Gen.k2_pay5
  simp only []
  rw [shapeCast_self, hW1, hW2, hW3, hb1, hb2, layer_eq, layer_eq, mm_eq]
  rfl

/-- The third layer's bias and rectifier on the first branch. -/
theorem pay4_eq (h : FVec Ideal S2000x256 .f32) (W3 : (⟨2, ![256, 256]⟩ : Shape).Idx → EReal) (v33 : Vec Ideal S1x256 .f32)
    (b3 : Fin 256 → EReal)
    (hb3 : broadcastTo S2000x256 (shapeCast S1x256 (shapeCast S256 v33 shapeCasts_S1x256_S256) shapeCasts_S256_S1x256)
      broadcasts_S1x256_S2000x256 = fun i => b3 (i 1)) :
    Gen.k2_pay4 (F := Ideal) (MM h W3) (Gen.k2_pay3 (F := Ideal) v33) = Cert.Spec.dense h W3 b3 := by
  unfold Gen.k2_pay4 Gen.k2_pay3
  simp only []
  rw [hb3]
  rfl

/-- The last payload: the third layer's bias and rectifier on the second branch, the two merging matrix products and
    the merged bias. -/
theorem pay1_eq (h0 g : FVec Ideal S2000x256 .f32) (W3 : (⟨2, ![256, 256]⟩ : Shape).Idx → EReal) (v72 : Vec Ideal S1x256 .f32)
    (v79 v82 : Vec Ideal S256x256 .f32) (v90 : Vec Ideal S1x256 .f32) (b3 : Fin 256 → EReal)
    (hb3 : broadcastTo S2000x256 (shapeCast S1x256 (shapeCast S256 v72 shapeCasts_S1x256_S256) shapeCasts_S256_S1x256)
      broadcasts_S1x256_S2000x256 = fun i => b3 (i 1)) :
    Gen.k2_pay1 (F := Ideal) h0 (MM g W3) v72 v79 v82 v90
      = fun i => (MM h0 v79 i + MM (Cert.Spec.dense g W3 b3) v82 i) + v90 (ix2 (0 : Fin 1) (i 1)) := by
  unfold Gen.k2_pay1
  simp only []
  rw [hb3, shapeCast_self, shapeCast_self, shapeCast_self, mm_eq, row_rep]
  have e : (maximumf (addf (MM g W3) fun i => b3 (i 1)) (broadcast S2000x256 (Scalar.ofBits (F := Ideal) .f32 0x00000000#32))
      : FVec Ideal S2000x256 .f32) = Cert.Spec.dense g W3 b3 := rfl
  rw [e, mm_eq]
  rfl

/-- The block the body leaves is the merged network of its ten input blocks. -/
theorem out2_10_eq (x0 x1 x2 : Vec Ideal S2000x256 .f32) (x3 : Vec Ideal S3x256x256 .f32) (x4 : Vec Ideal S3x256 .f32)
    (x5 : Vec Ideal S3x256x256 .f32) (x6 : Vec Ideal S3x256 .f32) (x7 x8 : Vec Ideal S256x256 .f32) (x9 : Vec Ideal S1x256 .f32) :
    Gen.out2_10 (F := Ideal) x0 x1 x2 x3 x4 x5 x6 x7 x8 x9
      = Cert.Spec.merged x0 x1 x2 x3 x4 x5 x6 x7 x8 (fun q => x9 (ix2 (0 : Fin 1) q)) := by
  have hz : (![0, 0] : Fin 2 → Nat) = fun _ => 0 := funext fun a => by fin_cases a <;> rfl
  unfold Gen.out2_10
  rw [View.canon_unit_zero hz]
  simp only [View.ld_unit_zero (S := S2000x256) hz, View.ld_unit_zero (S := S256x256) hz, View.ld_unit_zero (S := S1x256) hz]
  have s0 (W : Vec Ideal S3x256x256 .f32) := slab_eq W 0 ![0, 0, 0] rfl rfl rfl inb_S3x256x256_S1x256x256_0_0_0 shapeCasts_S1x256x256_S256x256
  have s1 (W : Vec Ideal S3x256x256 .f32) := slab_eq W 1 ![1, 0, 0] rfl rfl rfl inb_S3x256x256_S1x256x256_1_0_0 shapeCasts_S1x256x256_S256x256
  have s2 (W : Vec Ideal S3x256x256 .f32) := slab_eq W 2 ![2, 0, 0] rfl rfl rfl inb_S3x256x256_S1x256x256_2_0_0 shapeCasts_S1x256x256_S256x256
  have c0 (b : Vec Ideal S3x256 .f32) := brow_eq (a := 2000) b 0 ![0, 0] rfl rfl inb_S3x256_S1x256_0_0 shapeCasts_S1x256_S256 shapeCasts_S256_S1x256 broadcasts_S1x256_S2000x256
  have c1 (b : Vec Ideal S3x256 .f32) := brow_eq (a := 2000) b 1 ![1, 0] rfl rfl inb_S3x256_S1x256_1_0 shapeCasts_S1x256_S256 shapeCasts_S256_S1x256 broadcasts_S1x256_S2000x256
  have c2 (b : Vec Ideal S3x256 .f32) := brow_eq (a := 2000) b 2 ![2, 0] rfl rfl inb_S3x256_S1x256_2_0 shapeCasts_S1x256_S256 shapeCasts_S256_S1x256 broadcasts_S1x256_S2000x256
  rw [pay2_eq x2 x0 _ _ _ _ _ _ _ _ _ _ (s0 x3) (s1 x3) (s2 x3) (c0 x4) (c1 x4),
    pay4_eq _ _ _ _ (c2 x4),
    pay5_eq x2 x1 _ _ _ _ _ _ _ _ _ _ (s0 x5) (s1 x5) (s2 x5) (c0 x6) (c1 x6),
    pay1_eq _ _ _ _ _ _ _ _ (c2 x6)]
  rfl

end Cert.KernelIdeal.Fused

end
-- ==== Proof.FusedArr.lean ====
/-
  From the row blocks to the whole array.  The merged output is row-local, so the block of 2000 rows that grid point t
  leaves is rows 2000·t … 2000·t + 1999 of the merged output of the whole arrays; the 25 blocks tile the 50000 rows.
-/
import proofs.«119904_j1425929142863_2_alg».proof.Proof.Gen.KernelIdeal.Frame
import proofs.«119904_j1425929142863_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.FusedArr

open Cert.KernelIdeal Cert.KernelIdeal.Gen

variable (V : (c : Dev nD) → (b : Ref sig .tc) → Buf (Elt Ideal) ((c : Thread nD τ).loc b))

/-- The block index maps on the grid: the three row-indexed inputs and the output sit at block (t, 0). -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_10.index t (0 : Fin 2) = t.val ∧ win2_10.index t (1 : Fin 2) = 0 :=
  (by decide +kernel : ∀ t : Fin grid2.N, _)

/-- The seven parameter windows sit at block 0 on every axis, at every point. -/
theorem idx_whole : ∀ t : Fin cfg2.N,
    (win2_3.index t (0 : Fin 3) = 0 ∧ win2_3.index t (1 : Fin 3) = 0 ∧ win2_3.index t (2 : Fin 3) = 0)
    ∧ (win2_4.index t (0 : Fin 2) = 0 ∧ win2_4.index t (1 : Fin 2) = 0)
    ∧ (win2_5.index t (0 : Fin 3) = 0 ∧ win2_5.index t (1 : Fin 3) = 0 ∧ win2_5.index t (2 : Fin 3) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

theorem N_eq : cfg2.N = 25 := by decide

/-- Row p of the first input's block at point t is row 2000·t + p of its array. -/
theorem rows0 (c : Dev nD) (t : Fin cfg2.N) (p : Fin 2000) (k : Fin 256) (h : 2000 * t.val + p.val < 50000) :
    (iblk2 V c 0 t : Vec Ideal S2000x256 .f32) (ix2 p k) = (V c main_v26 : S50000x256.Idx → EReal) (ix2 ⟨2000 * t.val + p.val, h⟩ k) := by
  obtain ⟨e0, e1, -⟩ := idx_rows t
  unfold iblk2
  rw [View.read_apply]
  show V c main_v26 _ = V c main_v26 _
  congr 1
  funext a; apply Fin.ext
  match a with
  | ⟨0, _⟩ => show win2_0.index t (0 : Fin 2) * 2000 + 1 * p.val = 2000 * t.val + p.val; rw [e0]; omega
  | ⟨1, _⟩ => show win2_0.index t (1 : Fin 2) * 256 + 1 * k.val = k.val; rw [e1]; omega

/-- Row p of the second input's block at point t is row 2000·t + p of its array. -/
theorem rows1 (c : Dev nD) (t : Fin cfg2.N) (p : Fin 2000) (k : Fin 256) (h : 2000 * t.val + p.val < 50000) :
    (iblk2 V c 1 t : Vec Ideal S2000x256 .f32) (ix2 p k) = (V c main_v29 : S50000x256.Idx → EReal) (ix2 ⟨2000 * t.val + p.val, h⟩ k) := by
  obtain ⟨-, -, e0, e1, -⟩ := idx_rows t
  unfold iblk2
  rw [View.read_apply]
  show V c main_v29 _ = V c main_v29 _
  congr 1
  funext a; apply Fin.ext
  match a with
  | ⟨0, _⟩ => show win2_1.index t (0 : Fin 2) * 2000 + 1 * p.val = 2000 * t.val + p.val; rw [e0]; omega
  | ⟨1, _⟩ => show win2_1.index t (1 : Fin 2) * 256 + 1 * k.val = k.val; rw [e1]; omega

/-- Row p of the third input's block at point t is row 2000·t + p of its array. -/
theorem rows2 (c : Dev nD) (t : Fin cfg2.N) (p : Fin 2000) (k : Fin 256) (h : 2000 * t.val + p.val < 50000) :
    (iblk2 V c 2 t : Vec Ideal S2000x256 .f32) (ix2 p k) = (V c main_arg0 : S50000x256.Idx → EReal) (ix2 ⟨2000 * t.val + p.val, h⟩ k) := by
  obtain ⟨-, -, -, -, e0, e1, -⟩ := idx_rows t
  unfold iblk2
  rw [View.read_apply]
  show V c main_arg0 _ = V c main_arg0 _
  congr 1
  funext a; apply Fin.ext
  match a with
  | ⟨0, _⟩ => show win2_2.index t (0 : Fin 2) * 2000 + 1 * p.val = 2000 * t.val + p.val; rw [e0]; omega
  | ⟨1, _⟩ => show win2_2.index t (1 : Fin 2) * 256 + 1 * k.val = k.val; rw [e1]; omega

/-- A parameter window's block is its whole array: block 0 of the array's own size. -/
theorem whole3 (c : Dev nD) (t : Fin cfg2.N) :
    (iblk2 V c 3 t : Vec Ideal S3x256x256 .f32) = (V c main_arg11 : S3x256x256.Idx → EReal) := by
  obtain ⟨⟨e0, e1, e2⟩, -⟩ := idx_whole t
  funext y
  unfold iblk2
  rw [View.read_apply]
  show V c main_arg11 _ = V c main_arg11 y
  congr 1
  funext a; apply Fin.ext
  match a with
  | ⟨0, _⟩ => show win2_3.index t (0 : Fin 3) * 3 + 1 * (y 0).val = (y 0).val; rw [e0]; omega
  | ⟨1, _⟩ => show win2_3.index t (1 : Fin 3) * 256 + 1 * (y 1).val = (y 1).val; rw [e1]; omega
  | ⟨2, _⟩ => show win2_3.index t (2 : Fin 3) * 256 + 1 * (y 2).val = (y 2).val; rw [e2]; omega

theorem whole4 (c : Dev nD) (t : Fin cfg2.N) :
    (iblk2 V c 4 t : Vec Ideal S3x256 .f32) = (V c main_arg12 : S3x256.Idx → EReal) := by
  obtain ⟨-, ⟨e0, e1⟩, -⟩ := idx_whole t
  funext y
  unfold iblk2
  rw [View.read_apply]
  show V c main_arg12 _ = V c main_arg12 y
  congr 1
  funext a; apply Fin.ext
  match a with
  | ⟨0, _⟩ => show win2_4.index t (0 : Fin 2) * 3 + 1 * (y 0).val = (y 0).val; rw [e0]; omega
  | ⟨1, _⟩ => show win2_4.index t (1 : Fin 2) * 256 + 1 * (y 1).val = (y 1).val; rw [e1]; omega

theorem whole5 (c : Dev nD) (t : Fin cfg2.N) :
    (iblk2 V c 5 t : Vec Ideal S3x256x256 .f32) = (V c main_arg13 : S3x256x256.Idx → EReal) := by
  obtain ⟨-, -, ⟨e0, e1, e2⟩, -⟩ := idx_whole t
  funext y
  unfold iblk2
  rw [View.read_apply]
  show V c main_arg13 _ = V c main_arg13 y
  congr 1
  funext a; apply Fin.ext
  match a with
  | ⟨0, _⟩ => show win2_5.index t (0 : Fin 3) * 3 + 1 * (y 0).val = (y 0).val; rw [e0]; omega
  | ⟨1, _⟩ => show win2_5.index t (1 : Fin 3) * 256 + 1 * (y 1).val = (y 1).val; rw [e1]; omega
  | ⟨2, _⟩ => show win2_5.index t (2 : Fin 3) * 256 + 1 * (y 2).val = (y 2).val; rw [e2]; omega

theorem whole6 (c : Dev nD) (t : Fin cfg2.N) :
    (iblk2 V c 6 t : Vec Ideal S3x256 .f32) = (V c main_arg14 : S3x256.Idx → EReal) := by
  obtain ⟨-, -, -, ⟨e0, e1⟩, -⟩ := idx_whole t
  funext y
  unfold iblk2
  rw [View.read_apply]
  show V c main_arg14 _ = V c main_arg14 y
  congr 1
  funext a; apply Fin.ext
  match a with
  | ⟨0, _⟩ => show win2_6.index t (0 : Fin 2) * 3 + 1 * (y 0).val = (y 0).val; rw [e0]; omega
  | ⟨1, _⟩ => show win2_6.index t (1 : Fin 2) * 256 + 1 * (y 1).val = (y 1).val; rw [e1]; omega

theorem whole7 (c : Dev nD) (t : Fin cfg2.N) :
    (iblk2 V c 7 t : Vec Ideal S256x256 .f32) = (V c main_v30 : S256x256.Idx → EReal) := by
  obtain ⟨-, -, -, -, ⟨e0, e1⟩, -⟩ := idx_whole t
  funext y
  unfold iblk2
  rw [View.read_apply]
  show V c main_v30 _ = V c main_v30 y
  congr 1
  funext a; apply Fin.ext
  match a with
  | ⟨0, _⟩ => show win2_7.index t (0 : Fin 2) * 256 + 1 * (y 0).val = (y 0).val; rw [e0]; omega
  | ⟨1, _⟩ => show win2_7.index t (1 : Fin 2) * 256 + 1 * (y 1).val = (y 1).val; rw [e1]; omega

theorem whole8 (c : Dev nD) (t : Fin cfg2.N) :
    (iblk2 V c 8 t : Vec Ideal S256x256 .f32) = (V c main_v31 : S256x256.Idx → EReal) := by
  obtain ⟨-, -, -, -, -, ⟨e0, e1⟩, -⟩ := idx_whole t
  funext y
  unfold iblk2
  rw [View.read_apply]
  show V c main_v31 _ = V c main_v31 y
  congr 1
  funext a; apply Fin.ext
  match a with
  | ⟨0, _⟩ => show win2_8.index t (0 : Fin 2) * 256 + 1 * (y 0).val = (y 0).val; rw [e0]; omega
  | ⟨1, _⟩ => show win2_8.index t (1 : Fin 2) * 256 + 1 * (y 1).val = (y 1).val; rw [e1]; omega

theorem whole9 (c : Dev nD) (t : Fin cfg2.N) :
    (iblk2 V c 9 t : Vec Ideal S1x256 .f32) = (V c main_v32 : S1x256.Idx → EReal) := by
  obtain ⟨-, -, -, -, -, -, e0, e1⟩ := idx_whole t
  funext y
  unfold iblk2
  rw [View.read_apply]
  show V c main_v32 _ = V c main_v32 y
  congr 1
  funext a; apply Fin.ext
  match a with
  | ⟨0, _⟩ => show win2_9.index t (0 : Fin 2) * 1 + 1 * (y 0).val = (y 0).val; rw [e0]; omega
  | ⟨1, _⟩ => show win2_9.index t (1 : Fin 2) * 256 + 1 * (y 1).val = (y 1).val; rw [e1]; omega

/-- The merged output of a block of rows, at an index of the block, is the merged output of the whole arrays at the
    matching index: the row-indexed inputs are rows 2000·n … of the arrays, the parameters are the same. -/
theorem merged_rows (n : Nat)
    (x0 x1 x2 : Vec Ideal S2000x256 .f32) (a0 a1 a2 : S50000x256.Idx → EReal)
    (x3 W0 : S3x256x256.Idx → EReal) (x4 b0 : S3x256.Idx → EReal)
    (x5 W1 : S3x256x256.Idx → EReal) (x6 b1 : S3x256.Idx → EReal)
    (x7 Wm0 x8 Wm1 : S256x256.Idx → EReal) (x9 bm : S1x256.Idx → EReal)
    (h0 : ∀ (p : Fin 2000) (k : Fin 256) (h : 2000 * n + p.val < 50000), x0 (ix2 p k) = a0 (ix2 ⟨2000 * n + p.val, h⟩ k))
    (h1 : ∀ (p : Fin 2000) (k : Fin 256) (h : 2000 * n + p.val < 50000), x1 (ix2 p k) = a1 (ix2 ⟨2000 * n + p.val, h⟩ k))
    (h2 : ∀ (p : Fin 2000) (k : Fin 256) (h : 2000 * n + p.val < 50000), x2 (ix2 p k) = a2 (ix2 ⟨2000 * n + p.val, h⟩ k))
    (e3 : x3 = W0) (e4 : x4 = b0) (e5 : x5 = W1) (e6 : x6 = b1) (e7 : x7 = Wm0) (e8 : x8 = Wm1) (e9 : x9 = bm)
    (y : S2000x256.Idx) (i : S50000x256.Idx) (hi0 : (i 0).val = 2000 * n + (y 0).val) (hi1 : (i 1).val = (y 1).val) :
    Cert.Spec.merged x0 x1 x2 x3 x4 x5 x6 x7 x8 (fun q => x9 (ix2 (0 : Fin 1) q)) y
      = Cert.Spec.merged a0 a1 a2 W0 b0 W1 b1 Wm0 Wm1 (fun q => bm (ix2 (0 : Fin 1) q)) i := by
  subst e3 e4 e5 e6 e7 e8 e9
  have hp : 2000 * n + (y 0).val < 50000 := by have := idx2_lt0 i; omega
  have hi : i = ix2 (⟨2000 * n + (y 0).val, hp⟩ : Fin 50000) (y 1) := by
    rw [eq_ix2 i]
    congr 1
    · exact Fin.ext hi0
    · exact Fin.ext hi1
  rw [eq_ix2 y, hi]
  exact Cert.Spec.merged_rowLocal x0 x1 x2 a0 a1 a2 x3 x4 x5 x6 x7 x8 _ (y 0) ⟨2000 * n + (y 0).val, hp⟩
    (fun k => h0 (y 0) k hp) (fun k => h1 (y 0) k hp) (fun k => h2 (y 0) k hp) (y 1)

/-- The whole result array both sides are compared against: the merged output of the arrays as the region finds them. -/
abbrev G (c : Dev nD) : S50000x256.Idx → EReal :=
  Cert.Spec.merged (V c main_v26) (V c main_v29) (V c main_arg0) (V c main_arg11) (V c main_arg12) (V c main_arg13)
    (V c main_arg14) (V c main_v30) (V c main_v31) (fun q => V c main_v32 (ix2 (0 : Fin 1) q))

variable (hpay : ∀ (x0 x1 x2 : Vec Ideal S2000x256 .f32) (x3 : Vec Ideal S3x256x256 .f32) (x4 : Vec Ideal S3x256 .f32) (x5 : Vec Ideal S3x256x256 .f32) (x6 : Vec Ideal S3x256 .f32) (x7 x8 : Vec Ideal S256x256 .f32) (x9 : Vec Ideal S1x256 .f32),
        Gen.out2_10 (F := Ideal) x0 x1 x2 x3 x4 x5 x6 x7 x8 x9 = Cert.Spec.merged x0 x1 x2 x3 x4 x5 x6 x7 x8 (fun q => x9 (ix2 (0 : Fin 1) q)))

include hpay in
/-- What point t writes back is block t of the merged output of the whole arrays. -/
theorem flushed_eq (c : Dev nD) (t : Fin cfg2.N) :
    (dat2 (F := Ideal) V c).flushed 10 t = ((cfg2.win 10).blk t).view.read (Elt Ideal) (G V c) := by
  show (cfg2.win 10).cut (grid2.coords t) ((dat2 (F := Ideal) V c).after 10 t) = _
  rw [after2_10, hpay]
  obtain ⟨-, -, -, -, -, -, e0, e1⟩ := idx_rows t
  funext y
  refine merged_rows t.val _ _ _ _ _ _ _ _ _ _ _ _ _ _ _ _ _ _ _ _
    (rows0 V c t) (rows1 V c t) (rows2 V c t) (whole3 V c t) (whole4 V c t) (whole5 V c t) (whole6 V c t)
    (whole7 V c t) (whole8 V c t) (whole9 V c t) _ (((cfg2.win 10).blk t).view.emb y) ?_ ?_
  · show win2_10.index t (0 : Fin 2) * 2000 + 1 * (y 0).val = 2000 * t.val + (y 0).val
    rw [e0]; omega
  · show win2_10.index t (1 : Fin 2) * 256 + 1 * (y 1).val = (y 1).val
    rw [e1]; omega

/-- An index of the array is in point t's block iff each coordinate is in the block's range on its axis. -/
theorem mem_blk (t : Fin cfg2.N) (i : S50000x256.Idx) :
    i ∈ ((cfg2.win 10).blk t).view.set ↔ ∀ a : Fin 2, win2_10.index t a * S2000x256.size a ≤ (i a).val ∧ (i a).val < win2_10.index t a * S2000x256.size a + S2000x256.size a := by
  show i ∈ ((View.whole main_v33).slice (win2_10.rect t)).set ↔ _
  rw [View.set_slice_whole, Rect.mem_set_unit]
  exact Iff.rfl

/-- Row r lies in the block of point r / 2000: the 25 blocks tile the 50000 rows. -/
theorem cover (i : S50000x256.Idx) :
    ∃ t : Fin cfg2.N, (cfg2.win 10).flush t = true ∧ i ∈ ((cfg2.win 10).blk t).view.set := by
  have hi0 : (i 0).val < 50000 := idx2_lt0 i
  have hi1 : (i 1).val < 256 := idx2_lt1 i
  have hN : cfg2.N = 25 := N_eq
  let t : Fin cfg2.N := ⟨(i 0).val / 2000, by omega⟩
  obtain ⟨-, -, -, -, -, -, e0, e1⟩ := idx_rows t
  have ht : t.val = (i 0).val / 2000 := rfl
  refine ⟨t, flush2_10 t, ?_⟩
  rw [mem_blk]
  intro a
  match a with
  | ⟨0, _⟩ => show win2_10.index t (0 : Fin 2) * 2000 ≤ (i 0).val ∧ (i 0).val < win2_10.index t (0 : Fin 2) * 2000 + 2000; rw [e0, ht]; omega
  | ⟨1, _⟩ => show win2_10.index t (1 : Fin 2) * 256 ≤ (i 1).val ∧ (i 1).val < win2_10.index t (1 : Fin 2) * 256 + 256; rw [e1]; omega

include hpay in
/-- The result array after the region: the merged output of the arrays as the region finds them. -/
theorem fused_arr (c : Dev nD) :
    (Gen.dat2 (F := Ideal) V c).arrAt 10 cfg2.N
      = (Cert.Spec.merged (V c main_v26) (V c main_v29) (V c main_arg0) (V c main_arg11) (V c main_arg12) (V c main_arg13) (V c main_arg14) (V c main_v30) (V c main_v31) (fun q => V c main_v32 (ix2 (0 : Fin 1) q)) : S50000x256.Idx → EReal) :=
  (dat2 (F := Ideal) V c).arrAt_eq_of_cover 10 (G V c) (fun t _ => flushed_eq V hpay c t) cover

end Cert.KernelIdeal.FusedArr

end
-- ==== Proof.HostMid.lean ====
import proofs.«119904_j1425929142863_2_alg».proof.Proof.Gen.KernelIdeal.Frame
import Idealize.ShloMosaic.Lib.StableHlo.Run
import Idealize.ShloMosaic.PureOps.Ideal.Laws

set_option maxRecDepth 16384

noncomputable section

namespace Cert.KernelIdeal.Mid

open Idealize.ShloMosaic Idealize.ShloMosaic.TcCoe Idealize.ShloMosaic.Tactic
open Idealize.ShloMosaic.StableHlo
open Idealize.ShloMosaic.Pipeline (Dat Cfg Window)
open Facts₀ Facts

variable (m : (ℓ : Loc nD τ sig) → Buf (Elt Ideal) ℓ) (ρ : Dev nD → PrngReg) (c : Dev nD)

/-! # The host operations between the two projections and the merged layers

Per branch the host computes the messages vals[:, None] * support[cols] (a negative column index wrapped by the
table's length) and adds message e into row rows[e] of a zero array; it then splits the merging weight into its two
halves and reads the merging bias as a one-row matrix. Here each of these is named as a function of the launch
contents and of the two projections the first two regions leave. -/

/-- The aggregate of one branch: row r is the sum over the edges e with rows[e] = r of vals[e] * sup[cols[e], :],
    as the host operations compose it (a negative column counted from the table's end). -/
def aggK (vals : (⟨S400000, .f32⟩ : BufTy).Contents (Elt Ideal)) (rows cols : (⟨S400000, .i32⟩ : BufTy).Contents (Elt Ideal))
    (sup : (⟨S100000x256, .bf16⟩ : BufTy).Contents (Elt Ideal)) : (⟨S50000x256, .f32⟩ : BufTy).Contents (Elt Ideal) :=
  Host.scatterAdd scatter_S50000x256_S400000x1_S400000x256_1_0_0_1
    (broadcastInDim S50000x256 ![] bcast_S_S50000x256 (constant (F := Ideal) S_ .f32 0x00000000#32))
    (broadcastInDim S400000x1 ![0] bcast_S400000_S400000x1_0 rows)
    (mulf (broadcastInDim S400000x256 ![0, 1] bcast_S400000x1_S400000x256_0_1 (broadcastInDim S400000x1 ![0] bcast_S400000_S400000x1_0 vals))
      (extf .f32 (Host.gather gather_S100000x256_S400000x1_S400000x256_1_0_n_n_0_1_1256 sup
        (broadcastInDim S400000x1 ![0] bcast_S400000_S400000x1_0
          (select (cmpi .slt cols (broadcastInDim S400000 ![] bcast_S_S400000 (constantI S_ 32 0#32)))
            (addi cols (broadcastInDim S400000 ![] bcast_S_S400000 (constantI S_ 32 100000#32))) cols))) bitsLt_bf16_f32))

/-! ## The host operations' results over any entry contents -/

section Fold
variable (X : Valuation τ sig (Elt Ideal))

theorem after_agg0 : StableHlo.after (Gen.hostOps2 (F := Ideal)) X (Proc.devRef .tc main_v26)
    = aggK (X (Proc.devRef .tc main_arg3)) (X (Proc.devRef .tc main_arg5)) (X (Proc.devRef .tc main_arg6)) (X (Proc.devRef .tc main_v0)) := by
  after_results_simp <;> rfl
theorem after_agg1 : StableHlo.after (Gen.hostOps2 (F := Ideal)) X (Proc.devRef .tc main_v29)
    = aggK (X (Proc.devRef .tc main_arg4)) (X (Proc.devRef .tc main_arg7)) (X (Proc.devRef .tc main_arg8)) (X (Proc.devRef .tc main_v1)) := by
  after_results_simp <;> rfl
theorem after_wm0 : StableHlo.after (Gen.hostOps2 (F := Ideal)) X (Proc.devRef .tc main_v30)
    = extractStridedSlice S256x256 ![0, 0] (X (Proc.devRef .tc main_arg15)) slices_S512x256_S256x256_0_0 := by
  after_results_simp <;> rfl
theorem after_wm1 : StableHlo.after (Gen.hostOps2 (F := Ideal)) X (Proc.devRef .tc main_v31)
    = extractStridedSlice S256x256 ![256, 0] (X (Proc.devRef .tc main_arg15)) slices_S512x256_S256x256_256_0 := by
  after_results_simp <;> rfl
theorem after_bm : StableHlo.after (Gen.hostOps2 (F := Ideal)) X (Proc.devRef .tc main_v32)
    = shapeCast S1x256 (X (Proc.devRef .tc main_arg16)) shapeCasts_S256_S1x256 := by
  after_results_simp <;> rfl
theorem after_arg0 : StableHlo.after (Gen.hostOps2 (F := Ideal)) X (Proc.devRef .tc main_arg0) = X (Proc.devRef .tc main_arg0) := by
  after_results_simp
theorem after_arg11 : StableHlo.after (Gen.hostOps2 (F := Ideal)) X (Proc.devRef .tc main_arg11) = X (Proc.devRef .tc main_arg11) := by
  after_results_simp
theorem after_arg12 : StableHlo.after (Gen.hostOps2 (F := Ideal)) X (Proc.devRef .tc main_arg12) = X (Proc.devRef .tc main_arg12) := by
  after_results_simp
theorem after_arg13 : StableHlo.after (Gen.hostOps2 (F := Ideal)) X (Proc.devRef .tc main_arg13) = X (Proc.devRef .tc main_arg13) := by
  after_results_simp
theorem after_arg14 : StableHlo.after (Gen.hostOps2 (F := Ideal)) X (Proc.devRef .tc main_arg14) = X (Proc.devRef .tc main_arg14) := by
  after_results_simp

end Fold

/-! ## The contents at region 1's exit, walked back to the launch -/

theorem W2_arg0 : Gen.W2 (F := Ideal) m ρ c (Proc.devRef .tc main_arg0) = m ((c : Thread nD τ).loc main_arg0) :=
  (Gen.W2_of_ne m ρ c main_arg0 (by decide)).trans (Gen.W1_of_ne m ρ c main_arg0 (by decide))
theorem W2_arg3 : Gen.W2 (F := Ideal) m ρ c (Proc.devRef .tc main_arg3) = m ((c : Thread nD τ).loc main_arg3) :=
  (Gen.W2_of_ne m ρ c main_arg3 (by decide)).trans (Gen.W1_of_ne m ρ c main_arg3 (by decide))
theorem W2_arg4 : Gen.W2 (F := Ideal) m ρ c (Proc.devRef .tc main_arg4) = m ((c : Thread nD τ).loc main_arg4) :=
  (Gen.W2_of_ne m ρ c main_arg4 (by decide)).trans (Gen.W1_of_ne m ρ c main_arg4 (by decide))
theorem W2_arg5 : Gen.W2 (F := Ideal) m ρ c (Proc.devRef .tc main_arg5) = m ((c : Thread nD τ).loc main_arg5) :=
  (Gen.W2_of_ne m ρ c main_arg5 (by decide)).trans (Gen.W1_of_ne m ρ c main_arg5 (by decide))
theorem W2_arg6 : Gen.W2 (F := Ideal) m ρ c (Proc.devRef .tc main_arg6) = m ((c : Thread nD τ).loc main_arg6) :=
  (Gen.W2_of_ne m ρ c main_arg6 (by decide)).trans (Gen.W1_of_ne m ρ c main_arg6 (by decide))
theorem W2_arg7 : Gen.W2 (F := Ideal) m ρ c (Proc.devRef .tc main_arg7) = m ((c : Thread nD τ).loc main_arg7) :=
  (Gen.W2_of_ne m ρ c main_arg7 (by decide)).trans (Gen.W1_of_ne m ρ c main_arg7 (by decide))
theorem W2_arg8 : Gen.W2 (F := Ideal) m ρ c (Proc.devRef .tc main_arg8) = m ((c : Thread nD τ).loc main_arg8) :=
  (Gen.W2_of_ne m ρ c main_arg8 (by decide)).trans (Gen.W1_of_ne m ρ c main_arg8 (by decide))
theorem W2_arg11 : Gen.W2 (F := Ideal) m ρ c (Proc.devRef .tc main_arg11) = m ((c : Thread nD τ).loc main_arg11) :=
  (Gen.W2_of_ne m ρ c main_arg11 (by decide)).trans (Gen.W1_of_ne m ρ c main_arg11 (by decide))
theorem W2_arg12 : Gen.W2 (F := Ideal) m ρ c (Proc.devRef .tc main_arg12) = m ((c : Thread nD τ).loc main_arg12) :=
  (Gen.W2_of_ne m ρ c main_arg12 (by decide)).trans (Gen.W1_of_ne m ρ c main_arg12 (by decide))
theorem W2_arg13 : Gen.W2 (F := Ideal) m ρ c (Proc.devRef .tc main_arg13) = m ((c : Thread nD τ).loc main_arg13) :=
  (Gen.W2_of_ne m ρ c main_arg13 (by decide)).trans (Gen.W1_of_ne m ρ c main_arg13 (by decide))
theorem W2_arg14 : Gen.W2 (F := Ideal) m ρ c (Proc.devRef .tc main_arg14) = m ((c : Thread nD τ).loc main_arg14) :=
  (Gen.W2_of_ne m ρ c main_arg14 (by decide)).trans (Gen.W1_of_ne m ρ c main_arg14 (by decide))
theorem W2_arg15 : Gen.W2 (F := Ideal) m ρ c (Proc.devRef .tc main_arg15) = m ((c : Thread nD τ).loc main_arg15) :=
  (Gen.W2_of_ne m ρ c main_arg15 (by decide)).trans (Gen.W1_of_ne m ρ c main_arg15 (by decide))
theorem W2_arg16 : Gen.W2 (F := Ideal) m ρ c (Proc.devRef .tc main_arg16) = m ((c : Thread nD τ).loc main_arg16) :=
  (Gen.W2_of_ne m ρ c main_arg16 (by decide)).trans (Gen.W1_of_ne m ρ c main_arg16 (by decide))
/-- The first projection: region 0's output array as its write-backs leave it, untouched by region 1. -/
theorem W2_v0 : Gen.W2 (F := Ideal) m ρ c (Proc.devRef .tc main_v0) = (Gen.dat0 (Gen.V0 m ρ) c).arrAt 2 cfg0.N :=
  (Gen.W2_of_ne m ρ c main_v0 (by decide)).trans (Gen.W1_arr m ρ c 2)
/-- The second projection: region 1's output array as its write-backs leave it. -/
theorem W2_v1 : Gen.W2 (F := Ideal) m ρ c (Proc.devRef .tc main_v1) = (Gen.dat1 (Gen.V1 m ρ) c).arrAt 2 cfg1.N :=
  Gen.W2_arr m ρ c 2

/-! ## Region 2's entry contents -/

theorem V3_agg0 : Gen.V3 (F := Ideal) m ρ c main_v26
    = aggK (m ((c : Thread nD τ).loc main_arg3)) (m ((c : Thread nD τ).loc main_arg5)) (m ((c : Thread nD τ).loc main_arg6))
        ((Gen.dat0 (Gen.V0 m ρ) c).arrAt 2 cfg0.N) :=
  (after_agg0 (Gen.W2 m ρ c)).trans (by rw [W2_arg3, W2_arg5, W2_arg6, W2_v0])
theorem V3_agg1 : Gen.V3 (F := Ideal) m ρ c main_v29
    = aggK (m ((c : Thread nD τ).loc main_arg4)) (m ((c : Thread nD τ).loc main_arg7)) (m ((c : Thread nD τ).loc main_arg8))
        ((Gen.dat1 (Gen.V1 m ρ) c).arrAt 2 cfg1.N) :=
  (after_agg1 (Gen.W2 m ρ c)).trans (by rw [W2_arg4, W2_arg7, W2_arg8, W2_v1])
theorem V3_wm0 : Gen.V3 (F := Ideal) m ρ c main_v30
    = extractStridedSlice S256x256 ![0, 0] (m ((c : Thread nD τ).loc main_arg15)) slices_S512x256_S256x256_0_0 :=
  (after_wm0 (Gen.W2 m ρ c)).trans (by rw [W2_arg15])
theorem V3_wm1 : Gen.V3 (F := Ideal) m ρ c main_v31
    = extractStridedSlice S256x256 ![256, 0] (m ((c : Thread nD τ).loc main_arg15)) slices_S512x256_S256x256_256_0 :=
  (after_wm1 (Gen.W2 m ρ c)).trans (by rw [W2_arg15])
theorem V3_bm : Gen.V3 (F := Ideal) m ρ c main_v32 = shapeCast S1x256 (m ((c : Thread nD τ).loc main_arg16)) shapeCasts_S256_S1x256 :=
  (after_bm (Gen.W2 m ρ c)).trans (by rw [W2_arg16])
theorem V3_arg0 : Gen.V3 (F := Ideal) m ρ c main_arg0 = m ((c : Thread nD τ).loc main_arg0) :=
  (after_arg0 (Gen.W2 m ρ c)).trans (W2_arg0 m ρ c)
theorem V3_arg11 : Gen.V3 (F := Ideal) m ρ c main_arg11 = m ((c : Thread nD τ).loc main_arg11) :=
  (after_arg11 (Gen.W2 m ρ c)).trans (W2_arg11 m ρ c)
theorem V3_arg12 : Gen.V3 (F := Ideal) m ρ c main_arg12 = m ((c : Thread nD τ).loc main_arg12) :=
  (after_arg12 (Gen.W2 m ρ c)).trans (W2_arg12 m ρ c)
theorem V3_arg13 : Gen.V3 (F := Ideal) m ρ c main_arg13 = m ((c : Thread nD τ).loc main_arg13) :=
  (after_arg13 (Gen.W2 m ρ c)).trans (W2_arg13 m ρ c)
theorem V3_arg14 : Gen.V3 (F := Ideal) m ρ c main_arg14 = m ((c : Thread nD τ).loc main_arg14) :=
  (after_arg14 (Gen.W2 m ρ c)).trans (W2_arg14 m ρ c)

/-! ## The two projections' inputs, as launched -/

theorem V0_arg1 : Gen.V0 (F := Ideal) m ρ c main_arg1 = m ((c : Thread nD τ).loc main_arg1) := rfl
theorem V0_arg9 : Gen.V0 (F := Ideal) m ρ c main_arg9 = m ((c : Thread nD τ).loc main_arg9) := rfl
theorem V1_arg2 : Gen.V1 (F := Ideal) m ρ c main_arg2 = m ((c : Thread nD τ).loc main_arg2) :=
  Gen.W1_of_ne m ρ c main_arg2 (by decide)
theorem V1_arg10 : Gen.V1 (F := Ideal) m ρ c main_arg10 = m ((c : Thread nD τ).loc main_arg10) :=
  Gen.W1_of_ne m ρ c main_arg10 (by decide)

end Cert.KernelIdeal.Mid
end
-- ==== Proof.LibJoinedAxis.lean ====
/-
  Matrix products over a joined axis, at the ideal values.  When the columns of the left factor are two or three pieces
  laid side by side, [x | y]·W or [x | y | z]·W, the product is the sum of the pieces' products with the matching blocks
  of consecutive rows of W: a finite sum over a joined index range is the sum of the sums over its pieces, which on the
  extended reals uses only that addition is commutative and associative (no finiteness).  With it: a block of
  consecutive rows of a matrix as a function of the index and as what a unit-stride host slice cuts out, a vector recast
  as a one-row matrix, and that a row of a product depends on that row of the left factor only.
-/
import proofs.«119904_j1425929142863_2_alg».proof.Proof.LibMatmul
import Idealize.ShloMosaic.Lib.Pipeline.Value

noncomputable section

open scoped BigOperators

namespace Cert.LibJoinedAxis

open Idealize.ShloMosaic Idealize.ShloMosaic.ValueIdx Cert.LibMatmul

/-- Rows `off, …, off + K' - 1` of a matrix with `K` rows. -/
def rowsAt {K B : Nat} (off K' : Nat) (h : off + K' ≤ K) (w : (⟨2, ![K, B]⟩ : Shape).Idx → EReal) :
    (⟨2, ![K', B]⟩ : Shape).Idx → EReal :=
  fun i => w (ix2 ⟨off + (i 0).val, by have := idx2_lt0 i; omega⟩ (i 1))

theorem rowsAt_apply {K B : Nat} (off K' : Nat) (h : off + K' ≤ K) (w : (⟨2, ![K, B]⟩ : Shape).Idx → EReal)
    (k : Fin K') (q : Fin B) : rowsAt off K' h w (ix2 k q) = w (ix2 ⟨off + k.val, by have := k.isLt; omega⟩ q) := rfl

/-- Rows `off, …, off + K' - 1` of a matrix, all columns, are what a unit-stride slice at offset (off, 0) cuts out. -/
theorem slice_rows {K B K' : Nat} (off : Nat) (w : (⟨2, ![K, B]⟩ : Shape).Idx → EReal)
    (h : (⟨2, ![K, B]⟩ : Shape).Slices ![off, 0] ⟨2, ![K', B]⟩) (hle : off + K' ≤ K) :
    extractStridedSlice ⟨2, ![K', B]⟩ ![off, 0] w h = rowsAt off K' hle w := by
  funext i
  obtain ⟨k, q, rfl⟩ : ∃ (k : Fin K') (q : Fin B), i = ix2 k q := ⟨i 0, i 1, eq_ix2 i⟩
  rw [rowsAt_apply]
  refine extractStridedSlice_apply ![off, 0] w h (ix2 k q) (ix2 ⟨off + k.val, by have := k.isLt; omega⟩ q) (fun a => ?_)
  match a with
  | ⟨0, _⟩ => rfl
  | ⟨1, _⟩ => show q.val = 0 + q.val; omega

/-- A vector recast as a one-row matrix reads the vector at the column. -/
theorem reshape_row {B : Nat} (v : (⟨1, ![B]⟩ : Shape).Idx → EReal)
    (h : (⟨1, ![B]⟩ : Shape).ShapeCasts ⟨2, ![1, B]⟩) :
    shapeCast ⟨2, ![1, B]⟩ v h = fun i => v (ix1 (i 1)) := by
  funext i
  refine shapeCast_apply v h i (ix1 (i 1)) ?_
  rewrite [Shape.rowMajor_val_one, Shape.rowMajor_val_two]
  have h0 : (i 0).val < 1 := idx2_lt0 i
  have h00 : (i 0).val = 0 := by omega
  show (i 1).val = (i 0).val * B + (i 1).val
  rw [h00]; omega

/-- A row of a matrix product depends on that row of the left factor only. -/
theorem MM_row {A A' K B : Nat} (x : (⟨2, ![A, K]⟩ : Shape).Idx → EReal) (x' : (⟨2, ![A', K]⟩ : Shape).Idx → EReal)
    (w : (⟨2, ![K, B]⟩ : Shape).Idx → EReal) (p : Fin A) (p' : Fin A') (q : Fin B)
    (hx : ∀ k : Fin K, x (ix2 p k) = x' (ix2 p' k)) : MM x w (ix2 p q) = MM x' w (ix2 p' q) := by
  rw [MM_apply, MM_apply]
  exact Finset.sum_congr rfl fun k _ => by rw [hx k]

/-! ## A sum over a joined index range is the sum of the sums over its pieces -/

theorem sum_two {M : Type} [AddCommMonoid M] (a b : Nat) (f : Fin (a + b) → M) :
    ∑ k : Fin (a + b), f k
      = ∑ k : Fin a, f ⟨0 + k.val, by have := k.isLt; omega⟩ + ∑ k : Fin b, f ⟨a + k.val, by have := k.isLt; omega⟩ := by
  rw [Fin.sum_univ_add]
  refine congrArg₂ (· + ·) ?_ ?_ <;> refine Finset.sum_congr rfl fun k _ => congrArg f (Fin.ext ?_)
  · show k.val = 0 + k.val; omega
  · rfl

theorem sum_three {M : Type} [AddCommMonoid M] (a b c : Nat) (f : Fin (a + b + c) → M) :
    ∑ k : Fin (a + b + c), f k
      = (∑ k : Fin a, f ⟨0 + k.val, by have := k.isLt; omega⟩ + ∑ k : Fin b, f ⟨a + k.val, by have := k.isLt; omega⟩)
        + ∑ k : Fin c, f ⟨a + b + k.val, by have := k.isLt; omega⟩ := by
  rw [Fin.sum_univ_add, Fin.sum_univ_add]
  refine congrArg₂ (· + ·) (congrArg₂ (· + ·) ?_ ?_) ?_ <;> refine Finset.sum_congr rfl fun k _ => congrArg f (Fin.ext ?_)
  · show k.val = 0 + k.val; omega
  · rfl
  · rfl

/-! ## The product of a matrix whose columns are pieces laid side by side -/

/-- [x | y]·W = x·(the first `a` rows of W) + y·(the next `b` rows), at row `p` and column `q`; the joined matrix enters
    only through its row `p` read at a column of each piece. -/
theorem MM_join2 {E a b B : Nat} (cat : (⟨2, ![E, a + b]⟩ : Shape).Idx → EReal) (x : (⟨2, ![E, a]⟩ : Shape).Idx → EReal)
    (y : (⟨2, ![E, b]⟩ : Shape).Idx → EReal) (w : (⟨2, ![a + b, B]⟩ : Shape).Idx → EReal) (p : Fin E) (q : Fin B)
    (h0 : ∀ k : Fin a, cat (ix2 p ⟨0 + k.val, by have := k.isLt; omega⟩) = x (ix2 p k))
    (h1 : ∀ k : Fin b, cat (ix2 p ⟨a + k.val, by have := k.isLt; omega⟩) = y (ix2 p k)) :
    MM cat w (ix2 p q)
      = MM x (rowsAt 0 a (by omega) w) (ix2 p q) + MM y (rowsAt a b (by omega) w) (ix2 p q) := by
  rw [MM_apply, MM_apply, MM_apply]
  refine (sum_two a b (fun k : Fin (a + b) => cat (ix2 p k) * w (ix2 k q))).trans ?_
  refine congrArg₂ (· + ·) ?_ ?_
  · exact Finset.sum_congr rfl fun k _ => by rw [rowsAt_apply]; exact congrArg (· * _) (h0 k)
  · exact Finset.sum_congr rfl fun k _ => by rw [rowsAt_apply]; exact congrArg (· * _) (h1 k)

/-- [x | y | z]·W = x·(the first `a` rows of W) + y·(the next `b` rows) + z·(the last `c` rows), the three products added
    left to right. -/
theorem MM_join3 {E a b c B : Nat} (cat : (⟨2, ![E, a + b + c]⟩ : Shape).Idx → EReal) (x : (⟨2, ![E, a]⟩ : Shape).Idx → EReal)
    (y : (⟨2, ![E, b]⟩ : Shape).Idx → EReal) (z : (⟨2, ![E, c]⟩ : Shape).Idx → EReal)
    (w : (⟨2, ![a + b + c, B]⟩ : Shape).Idx → EReal) (p : Fin E) (q : Fin B)
    (h0 : ∀ k : Fin a, cat (ix2 p ⟨0 + k.val, by have := k.isLt; omega⟩) = x (ix2 p k))
    (h1 : ∀ k : Fin b, cat (ix2 p ⟨a + k.val, by have := k.isLt; omega⟩) = y (ix2 p k))
    (h2 : ∀ k : Fin c, cat (ix2 p ⟨a + b + k.val, by have := k.isLt; omega⟩) = z (ix2 p k)) :
    MM cat w (ix2 p q)
      = (MM x (rowsAt 0 a (by omega) w) (ix2 p q) + MM y (rowsAt a b (by omega) w) (ix2 p q))
        + MM z (rowsAt (a + b) c (by omega) w) (ix2 p q) := by
  rw [MM_apply, MM_apply, MM_apply, MM_apply]
  refine (sum_three a b c (fun k : Fin (a + b + c) => cat (ix2 p k) * w (ix2 k q))).trans ?_
  refine congrArg₂ (· + ·) (congrArg₂ (· + ·) ?_ ?_) ?_
  · exact Finset.sum_congr rfl fun k _ => by rw [rowsAt_apply]; exact congrArg (· * _) (h0 k)
  · exact Finset.sum_congr rfl fun k _ => by rw [rowsAt_apply]; exact congrArg (· * _) (h1 k)
  · exact Finset.sum_congr rfl fun k _ => by rw [rowsAt_apply]; exact congrArg (· * _) (h2 k)

end Cert.LibJoinedAxis

end
-- ==== Proof.LibBcastInDim.lean ====
/-
  The host's `broadcast_in_dim` in the four arrangements a row-wise reference uses, read as functions of the
  index: a scalar to any shape; a length-b array to one row and then down a rows; a length-a array to a column;
  a column across b columns.
-/
import Idealize.ShloMosaic.Lib.Pipeline.Value
import Idealize.ShloMosaic.Lib.ValueLayout

namespace Cert.LibBcastInDim

open Idealize.ShloMosaic Idealize.ShloMosaic.ValueIdx

variable {α : Type}

/-- A scalar broadcast to any shape holds the scalar everywhere. -/
theorem bid_scalar {t : Shape} (x : (⟨0, ![]⟩ : Shape).Idx → α)
    (h : (⟨0, ![]⟩ : Shape).BroadcastsInDim t (![] : Fin 0 → Fin t.rank)) :
    broadcastInDim t ![] h x = fun _ => x ix0 := by
  funext j
  exact broadcastInDim_apply _ h x j ix0 (fun a => a.elim0)

/-- A length-b array placed as one row and broadcast down a rows holds, at (p, c), its entry c. -/
theorem bid_row {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) :
    broadcastInDim ⟨2, ![a, b]⟩ ![0, 1] h2 (broadcastInDim ⟨2, ![1, b]⟩ ![1] h1 v) = fun i => v (ix1 (i 1)) := by
  funext i
  have hlt : (i 1).val < b := (i 1).isLt
  refine (broadcastInDim_apply _ h2 _ i (ix2 (0 : Fin 1) (i 1)) fun ax => ?_).trans
    (broadcastInDim_apply _ h1 v (ix2 (0 : Fin 1) (i 1)) (ix1 (i 1)) fun ax => ?_)
  · match ax with
    | ⟨0, _⟩ => rfl
    | ⟨1, _⟩ =>
      show (i 1).val = if b = 1 then 0 else (i 1).val
      split
      · omega
      · rfl
  · match ax with
    | ⟨0, _⟩ =>
      show (i 1).val = if b = 1 then 0 else (i 1).val
      split
      · omega
      · rfl

/-- A length-a array placed as a column holds, at (r, u), its entry r. -/
theorem bid_col {a : ℕ} (v : (⟨1, ![a]⟩ : Shape).Idx → α)
    (h : (⟨1, ![a]⟩ : Shape).BroadcastsInDim ⟨2, ![a, 1]⟩ (![0] : Fin 1 → Fin 2)) :
    broadcastInDim ⟨2, ![a, 1]⟩ ![0] h v = fun i => v (ix1 (i 0)) := by
  funext i
  have hlt : (i 0).val < a := (i 0).isLt
  refine broadcastInDim_apply _ h v i (ix1 (i 0)) fun ax => ?_
  match ax with
  | ⟨0, _⟩ =>
    show (i 0).val = if a = 1 then 0 else (i 0).val
    split
    · omega
    · rfl

/-- A column broadcast across b columns holds, at (r, c), the column's entry r. -/
theorem bid_across {a b : ℕ} (v : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ ![0, 1] h v = fun i => v (ix2 (i 0) (0 : Fin 1)) := by
  funext i
  have hlt : (i 0).val < a := (i 0).isLt
  refine broadcastInDim_apply _ h v i (ix2 (i 0) (0 : Fin 1)) fun ax => ?_
  match ax with
  | ⟨0, _⟩ =>
    show (i 0).val = if a = 1 then 0 else (i 0).val
    split
    · omega
    · rfl
  | ⟨1, _⟩ => rfl

end Cert.LibBcastInDim
-- ==== Proof.RefValue.lean ====
/-
  The reference computation read as mathematics, at the ideal values.  After the two sparse aggregations (kept as one
  function of the values, the row and column positions and the support), the reference adds the input t, runs three
  dense layers max(h·W[l] + b[l], 0) on each branch, lays the two results side by side, multiplies by the 512 × 256
  matrix Wm and adds the row bm.  Reading each step at an index: a product over the joined 512 columns is the sum of the
  two products with the upper and lower 256 rows of Wm, so the result is
  (mlp(a0 + t)·Wm_top + mlp(a1 + t)·Wm_bottom) + bm.
-/
import proofs.«119904_j1425929142863_2_alg».proof.Proof.Gen.ReferenceIdeal.Run
import proofs.«119904_j1425929142863_2_alg».proof.Proof.Spec
import proofs.«119904_j1425929142863_2_alg».proof.Proof.LibJoinedAxis
import proofs.«119904_j1425929142863_2_alg».proof.Proof.LibBcastInDim
import Idealize.ShloMosaic.Lib.Pipeline.Value
import Idealize.ShloMosaic.Lib.ValueIdx
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.LibMatmul

/-- The sparse aggregation: the support's rows at the (wrapped) column positions, scaled by the values and added into
    the rows named by the row positions, from zero. -/
def aggR (vals : (⟨S400000, .f32⟩ : BufTy).Contents (Elt Ideal)) (rows cols : (⟨S400000, .i32⟩ : BufTy).Contents (Elt Ideal))
    (sup : (⟨S100000x256, .f32⟩ : BufTy).Contents (Elt Ideal)) : (⟨S50000x256, .f32⟩ : BufTy).Contents (Elt Ideal) :=
  Host.scatterAdd scatter_S50000x256_S400000x1_S400000x256_1_0_0_1
    (broadcastInDim S50000x256 ![] bcast_S_S50000x256 (constant (F := Ideal) S_ .f32 0x00000000#32))
    (broadcastInDim S400000x1 ![0] bcast_S400000_S400000x1_0 rows)
    (mulf (broadcastInDim S400000x256 ![0, 1] bcast_S400000x1_S400000x256_0_1 (broadcastInDim S400000x1 ![0] bcast_S400000_S400000x1_0 vals))
      (Host.gather gather_S100000x256_S400000x1_S400000x256_1_0_n_n_0_1_1256 sup
        (broadcastInDim S400000x1 ![0] bcast_S400000_S400000x1_0
          (select (cmpi .slt cols (broadcastInDim S400000 ![] bcast_S_S400000 (constantI S_ 32 0#32)))
            (addi cols (broadcastInDim S400000 ![] bcast_S_S400000 (constantI S_ 32 100000#32))) cols))))

/-! ## The matrix products -/

theorem dg_sup (x : FVec Ideal S100000x128 .f32) (w : FVec Ideal S128x256 .f32) :
    Host.dotGeneral (F := Ideal) dot_S100000x128_S128x256_S100000x256_1_0_0_1_n_n none x w = MM x w :=
  Cert.LibMatmul.dotGeneral_eq _ rfl rfl rfl rfl rfl rfl none _ x w

theorem dg_layer (x : FVec Ideal S50000x256 .f32) (w : FVec Ideal S256x256 .f32) :
    Host.dotGeneral (F := Ideal) dot_S50000x256_S256x256_S50000x256_1_0_0_1_n_n none x w = MM x w :=
  Cert.LibMatmul.dotGeneral_eq _ rfl rfl rfl rfl rfl rfl none _ x w

theorem dg_merge (x : FVec Ideal S50000x512 .f32) (w : FVec Ideal S512x256 .f32) :
    Host.dotGeneral (F := Ideal) dot_S50000x512_S512x256_S50000x256_1_0_0_1_n_n none x w = MM x w :=
  Cert.LibMatmul.dotGeneral_eq _ rfl rfl rfl rfl rfl rfl none _ x w

/-! ## Adding the input: a + 1·t = a + t -/

theorem residual (a t : FVec Ideal S50000x256 .f32) (h : S_.BroadcastsInDim S50000x256 (![] : Fin 0 → Fin S50000x256.rank)) :
    addf a (mulf (broadcastInDim S50000x256 ![] h (constant (F := Ideal) S_ .f32 0x3F800000#32)) t) = fun j => a j + t j := by
  funext j
  rw [addf_apply, mulf_apply, Cert.LibBcastInDim.bid_scalar, constant_apply, Ideal.ofBits_one_f32, one_mul]

/-! ## The weight slab and the bias row cut out of the stacked arrays -/

/-- Slice n of the stack of three matrices, its unit axis dropped, is matrix n. -/
theorem slab_eq (n : Nat) (hn : n < 3) (W : FVec Ideal S3x256x256 .f32)
    (hs : S3x256x256.Slices ![n, 0, 0] S1x256x256) (hc : S1x256x256.ShapeCasts S256x256) :
    shapeCast S256x256 (extractStridedSlice S1x256x256 ![n, 0, 0] W hs) hc = Cert.Spec.slab W ⟨n, hn⟩ := by
  funext i
  refine (shapeCast_dropUnit_apply ![256, 256] _ hc i).trans ?_
  refine extractStridedSlice_apply ![n, 0, 0] W hs _ (ix3 ⟨n, hn⟩ (i 0) (i 1)) (fun a => ?_)
  match a with
  | ⟨0, _⟩ => rfl
  | ⟨1, _⟩ => show (i 0).val = 0 + (i 0).val; omega
  | ⟨2, _⟩ => show (i 1).val = 0 + (i 1).val; omega

/-- Slice n of the stack of three rows, its unit axis dropped, laid out as one row and repeated down the rows, holds at
    (p, q) entry q of row n. -/
theorem bias_eq (n : Nat) (hn : n < 3) (b : FVec Ideal S3x256 .f32)
    (hs : S3x256.Slices ![n, 0] S1x256) (hc : S1x256.ShapeCasts S256)
    (h1 : S256.BroadcastsInDim S1x256 (![1] : Fin 1 → Fin S1x256.rank))
    (h2 : S1x256.BroadcastsInDim S50000x256 (![0, 1] : Fin 2 → Fin S50000x256.rank)) :
    broadcastInDim S50000x256 ![0, 1] h2 (broadcastInDim S1x256 ![1] h1 (shapeCast S256 (extractStridedSlice S1x256 ![n, 0] b hs) hc))
      = fun i => Cert.Spec.brow b ⟨n, hn⟩ (i 1) := by
  refine (Cert.LibBcastInDim.bid_row _ h1 h2).trans ?_
  funext i
  refine (shapeCast_dropUnit_apply ![256] _ hc (ix1 (i 1))).trans ?_
  refine extractStridedSlice_apply ![n, 0] b hs _ (ix2 ⟨n, hn⟩ (i 1)) (fun a => ?_)
  match a with
  | ⟨0, _⟩ => rfl
  | ⟨1, _⟩ => show (i 1).val = 0 + (i 1).val; omega

/-! ## One layer -/

/-- max(h·W' + bb, 0) read at an index. -/
theorem relu_layer (h : FVec Ideal S50000x256 .f32) (W' : FVec Ideal S256x256 .f32) (bb : FVec Ideal S50000x256 .f32)
    (h0 : S_.BroadcastsInDim S50000x256 (![] : Fin 0 → Fin S50000x256.rank)) :
    maximumf (addf (MM h W') bb) (broadcastInDim S50000x256 ![] h0 (constant (F := Ideal) S_ .f32 0x00000000#32))
      = fun i => max (MM h W' i + bb i) (Ideal.ofBits .f32 0x00000000#32) := by
  funext i
  rw [maximumf_apply, addf_apply, Cert.LibBcastInDim.bid_scalar, constant_apply]

/-- Layer n as the reference spells it. -/
def refLayer (n : Nat) (hs : S3x256x256.Slices ![n, 0, 0] S1x256x256) (hs' : S3x256.Slices ![n, 0] S1x256)
    (h : FVec Ideal S50000x256 .f32) (W : FVec Ideal S3x256x256 .f32) (b : FVec Ideal S3x256 .f32) : FVec Ideal S50000x256 .f32 :=
  maximumf (addf (Host.dotGeneral dot_S50000x256_S256x256_S50000x256_1_0_0_1_n_n none h
      (shapeCast S256x256 (extractStridedSlice S1x256x256 ![n, 0, 0] W hs) shapeCasts_S1x256x256_S256x256))
    (broadcastInDim S50000x256 ![0, 1] bcast_S1x256_S50000x256_0_1 (broadcastInDim S1x256 ![1] bcast_S256_S1x256_1
      (shapeCast S256 (extractStridedSlice S1x256 ![n, 0] b hs') shapeCasts_S1x256_S256))))
    (broadcastInDim S50000x256 ![] bcast_S_S50000x256 (constant (F := Ideal) S_ .f32 0x00000000#32))

theorem refLayer_eq (n : Nat) (hn : n < 3) (hs : S3x256x256.Slices ![n, 0, 0] S1x256x256) (hs' : S3x256.Slices ![n, 0] S1x256)
    (h : FVec Ideal S50000x256 .f32) (W : FVec Ideal S3x256x256 .f32) (b : FVec Ideal S3x256 .f32) :
    refLayer n hs hs' h W b = Cert.Spec.dense h (Cert.Spec.slab W ⟨n, hn⟩) (Cert.Spec.brow b ⟨n, hn⟩) := by
  unfold refLayer
  rw [dg_layer, slab_eq n hn, bias_eq n hn, relu_layer]
  rfl

/-- The three layers of one branch on a + t, as the reference spells them. -/
def refBranch (a t : FVec Ideal S50000x256 .f32) (W : FVec Ideal S3x256x256 .f32) (b : FVec Ideal S3x256 .f32) :
    FVec Ideal S50000x256 .f32 :=
  refLayer 2 slices_S3x256x256_S1x256x256_2_0_0 slices_S3x256_S1x256_2_0
    (refLayer 1 slices_S3x256x256_S1x256x256_1_0_0 slices_S3x256_S1x256_1_0
      (refLayer 0 slices_S3x256x256_S1x256x256_0_0_0 slices_S3x256_S1x256_0_0
        (addf a (mulf (broadcastInDim S50000x256 ![] bcast_S_S50000x256 (constant (F := Ideal) S_ .f32 0x3F800000#32)) t)) W b) W b) W b

theorem refBranch_eq (a t : FVec Ideal S50000x256 .f32) (W : FVec Ideal S3x256x256 .f32) (b : FVec Ideal S3x256 .f32) :
    refBranch a t W b = Cert.Spec.mlp3 (fun j => a j + t j) W b := by
  unfold refBranch
  rw [residual, refLayer_eq 0 (by omega), refLayer_eq 1 (by omega), refLayer_eq 2 (by omega)]
  rfl

/-! ## The last step: the product over the joined columns, plus the row bm -/

theorem merge_step (y0 y1 : FVec Ideal S50000x256 .f32) (Wm : FVec Ideal S512x256 .f32) (bm : FVec Ideal S256 .f32)
    (hcat : Shape.Concatenates [S50000x256, S50000x256] S50000x512 1)
    (h1 : S256.BroadcastsInDim S1x256 (![1] : Fin 1 → Fin S1x256.rank))
    (h2 : S1x256.BroadcastsInDim S50000x256 (![0, 1] : Fin 2 → Fin S50000x256.rank)) :
    addf (MM (concatenate S50000x512 1 [⟨S50000x256, y0⟩, ⟨S50000x256, y1⟩] hcat) Wm)
        (broadcastInDim S50000x256 ![0, 1] h2 (broadcastInDim S1x256 ![1] h1 bm))
      = fun i => (MM y0 (Cert.LibJoinedAxis.rowsAt 0 256 (by omega) Wm) i + MM y1 (Cert.LibJoinedAxis.rowsAt 256 256 (by omega) Wm) i)
          + bm (ix1 (i 1)) := by
  funext i
  obtain ⟨p, q, rfl⟩ : ∃ (p : Fin 50000) (q : Fin 256), i = ix2 p q := ⟨i 0, i 1, eq_ix2 i⟩
  rw [addf_apply, Cert.LibBcastInDim.bid_row bm h1 h2]
  refine congrArg (· + bm (ix1 q)) ?_
  refine Cert.LibJoinedAxis.MM_join2 (a := 256) (b := 256)
    (concatenate S50000x512 1 [⟨S50000x256, y0⟩, ⟨S50000x256, y1⟩] hcat) y0 y1 Wm p q (fun k => ?_) (fun k => ?_)
  · refine concatenate_pair_apply_left 1 y0 y1 hcat _ rfl (ix2 p k) (fun b => ?_)
    match b with
    | ⟨0, _⟩ => rfl
    | ⟨1, _⟩ => show k.val = 0 + k.val; omega
  · refine concatenate_pair_apply_right 1 y0 y1 hcat _ rfl rfl (ix2 p k) (fun b hb => ?_) ?_
    · match b with
      | ⟨0, _⟩ => rfl
      | ⟨1, _⟩ => exact absurd rfl hb
    · show k.val + 256 = 256 + k.val; omega

/-- The whole reference after the two aggregations, as the reference spells it. -/
def refAll (a0 a1 t : FVec Ideal S50000x256 .f32) (W0 : FVec Ideal S3x256x256 .f32) (b0 : FVec Ideal S3x256 .f32)
    (W1 : FVec Ideal S3x256x256 .f32) (b1 : FVec Ideal S3x256 .f32) (Wm : FVec Ideal S512x256 .f32) (bm : FVec Ideal S256 .f32) :
    FVec Ideal S50000x256 .f32 :=
  addf (Host.dotGeneral dot_S50000x512_S512x256_S50000x256_1_0_0_1_n_n none
      (concatenate S50000x512 1 [⟨S50000x256, refBranch a0 t W0 b0⟩, ⟨S50000x256, refBranch a1 t W1 b1⟩]
        concatenates_S50000x256_S50000x256_S50000x512_d1) Wm)
    (broadcastInDim S50000x256 ![0, 1] bcast_S1x256_S50000x256_0_1 (broadcastInDim S1x256 ![1] bcast_S256_S1x256_1 bm))

theorem refAll_eq (a0 a1 t : FVec Ideal S50000x256 .f32) (W0 : FVec Ideal S3x256x256 .f32) (b0 : FVec Ideal S3x256 .f32)
    (W1 : FVec Ideal S3x256x256 .f32) (b1 : FVec Ideal S3x256 .f32) (Wm : FVec Ideal S512x256 .f32) (bm : FVec Ideal S256 .f32) :
    refAll a0 a1 t W0 b0 W1 b1 Wm bm
      = Cert.Spec.merged a0 a1 t W0 b0 W1 b1 (Cert.LibJoinedAxis.rowsAt 0 256 (by omega) Wm)
          (Cert.LibJoinedAxis.rowsAt 256 256 (by omega) Wm) (fun q => bm (ix1 q)) := by
  unfold refAll
  rw [dg_merge, merge_step, refBranch_eq, refBranch_eq]
  rfl

/-! ## The reference's result -/

theorem ref_value (m : (ℓ : Loc nD τ sig) → Buf (Elt Ideal) ℓ) (c : Dev nD) :
    Cert.ReferenceIdeal.Value.res_main_v92 (F := Ideal) m c
      = (Cert.Spec.merged
          (aggR (m ((c.tc : Thread nD τ).loc main_arg3)) (m ((c.tc : Thread nD τ).loc main_arg5)) (m ((c.tc : Thread nD τ).loc main_arg6))
            (MM (m ((c.tc : Thread nD τ).loc main_arg1)) (m ((c.tc : Thread nD τ).loc main_arg9))))
          (aggR (m ((c.tc : Thread nD τ).loc main_arg4)) (m ((c.tc : Thread nD τ).loc main_arg7)) (m ((c.tc : Thread nD τ).loc main_arg8))
            (MM (m ((c.tc : Thread nD τ).loc main_arg2)) (m ((c.tc : Thread nD τ).loc main_arg10))))
          (m ((c.tc : Thread nD τ).loc main_arg0))
          (m ((c.tc : Thread nD τ).loc main_arg11)) (m ((c.tc : Thread nD τ).loc main_arg12))
          (m ((c.tc : Thread nD τ).loc main_arg13)) (m ((c.tc : Thread nD τ).loc main_arg14))
          (Cert.LibJoinedAxis.rowsAt 0 256 (by omega) (m ((c.tc : Thread nD τ).loc main_arg15)))
          (Cert.LibJoinedAxis.rowsAt 256 256 (by omega) (m ((c.tc : Thread nD τ).loc main_arg15)))
          (fun q => m ((c.tc : Thread nD τ).loc main_arg16) (ix1 q)) : S50000x256.Idx → EReal) := by
  have e : Cert.ReferenceIdeal.Value.res_main_v92 (F := Ideal) m c
      = refAll
          (aggR (m ((c.tc : Thread nD τ).loc main_arg3)) (m ((c.tc : Thread nD τ).loc main_arg5)) (m ((c.tc : Thread nD τ).loc main_arg6))
            (Host.dotGeneral (F := Ideal) (φ₁ := .f32) (φ₂ := .f32) dot_S100000x128_S128x256_S100000x256_1_0_0_1_n_n none
              (m ((c.tc : Thread nD τ).loc main_arg1)) (m ((c.tc : Thread nD τ).loc main_arg9))))
          (aggR (m ((c.tc : Thread nD τ).loc main_arg4)) (m ((c.tc : Thread nD τ).loc main_arg7)) (m ((c.tc : Thread nD τ).loc main_arg8))
            (Host.dotGeneral (F := Ideal) (φ₁ := .f32) (φ₂ := .f32) dot_S100000x128_S128x256_S100000x256_1_0_0_1_n_n none
              (m ((c.tc : Thread nD τ).loc main_arg2)) (m ((c.tc : Thread nD τ).loc main_arg10))))
          (m ((c.tc : Thread nD τ).loc main_arg0))
          (m ((c.tc : Thread nD τ).loc main_arg11)) (m ((c.tc : Thread nD τ).loc main_arg12))
          (m ((c.tc : Thread nD τ).loc main_arg13)) (m ((c.tc : Thread nD τ).loc main_arg14))
          (m ((c.tc : Thread nD τ).loc main_arg15)) (m ((c.tc : Thread nD τ).loc main_arg16)) := by
    unfold Cert.ReferenceIdeal.Value.res_main_v92
    rfl
  refine e.trans ?_
  rw [dg_sup, dg_sup]
  exact refAll_eq _ _ _ _ _ _ _ _ _

end Cert.ReferenceIdeal.RefValue

end
-- ==== Proof.Bridge.lean ====
/-
  The kernel's result array as the specification's function of the argument arrays.
  The first two regions leave the supports x_src0·W0 and x_src1·W1, whole; the host operations between the regions
  aggregate them over the edges (vals · support[cols], summed at rows) and cut the merge weight into its two halves of
  256 rows; the third region leaves, block of rows by block of rows, the merged output of the two three-layer
  branches.  The aggregation is the same chain of host operations in both programs (a change of float format between
  the gather and the product is the identity on the extended reals), so it is carried as one function and never opened.
-/
import proofs.«119904_j1425929142863_2_alg».proof.Proof.KernelRun
import proofs.«119904_j1425929142863_2_alg».proof.Proof.Support
import proofs.«119904_j1425929142863_2_alg».proof.Proof.Fused
import proofs.«119904_j1425929142863_2_alg».proof.Proof.FusedArr
import proofs.«119904_j1425929142863_2_alg».proof.Proof.HostMid
import proofs.«119904_j1425929142863_2_alg».proof.Proof.RefValue
import proofs.«119904_j1425929142863_2_alg».proof.Proof.LibJoinedAxis

noncomputable section

namespace Cert.Bridge

open Idealize.ShloMosaic Idealize.ShloMosaic.TcCoe Idealize.SL.Sem Idealize.ShloMosaic.ValueIdx
open Cert.LibMatmul Cert.LibJoinedAxis

/-- The sparse aggregation is one function in both programs: the kernel gathers rows of a support kept in a narrower
    float format and widens them, which on the extended reals is the identity. -/
theorem agg_eq (vals : (⟨Cert.KernelIdeal.S400000, .f32⟩ : BufTy).Contents (Elt Ideal))
    (rows cols : (⟨Cert.KernelIdeal.S400000, .i32⟩ : BufTy).Contents (Elt Ideal))
    (sup : Cert.KernelIdeal.S100000x256.Idx → EReal) :
    Cert.KernelIdeal.Mid.aggK vals rows cols sup = Cert.ReferenceIdeal.RefValue.aggR vals rows cols sup := rfl

section
open Cert.KernelIdeal Cert.KernelIdeal.Gen Cert.KernelIdeal.Mid Cert.KernelIdeal.Support Cert.ReferenceIdeal.RefValue

variable (m : (ℓ : Loc nD τ sig) → Buf (Elt Ideal) ℓ) (ρ : Dev nD → PrngReg) (c : Dev nD)

/-- The specification's array from a memory's argument arrays: the merged output of the two branches, each fed the
    aggregation of its support x_src·W, with the merge weight's two halves of 256 rows and the bias as a row. -/
def out : S50000x256.Idx → EReal :=
  Cert.Spec.merged (aggR (m ((c.tc : Thread nD τ).loc main_arg3)) (m ((c.tc : Thread nD τ).loc main_arg5)) (m ((c.tc : Thread nD τ).loc main_arg6)) (MM (m ((c.tc : Thread nD τ).loc main_arg1)) (m ((c.tc : Thread nD τ).loc main_arg9)))) (aggR (m ((c.tc : Thread nD τ).loc main_arg4)) (m ((c.tc : Thread nD τ).loc main_arg7)) (m ((c.tc : Thread nD τ).loc main_arg8)) (MM (m ((c.tc : Thread nD τ).loc main_arg2)) (m ((c.tc : Thread nD τ).loc main_arg10))))
    (m ((c.tc : Thread nD τ).loc main_arg0)) (m ((c.tc : Thread nD τ).loc main_arg11)) (m ((c.tc : Thread nD τ).loc main_arg12)) (m ((c.tc : Thread nD τ).loc main_arg13)) (m ((c.tc : Thread nD τ).loc main_arg14))
    (rowsAt 0 256 (by omega) (m ((c.tc : Thread nD τ).loc main_arg15))) (rowsAt 256 256 (by omega) (m ((c.tc : Thread nD τ).loc main_arg15))) (fun q => (m ((c.tc : Thread nD τ).loc main_arg16)) (ix1 q))

/-- After the run the kernel's result buffer holds the specification's array: the third region's blocks are the rows of
    the merged output of what the region found, and what it found is the aggregations of the two supports, the argument
    arrays, the two halves of the merge weight and the bias recast as a row. -/
theorem kernel_value : Gen.W4 (F := Ideal) m ρ c (Proc.devRef .tc main_v33) = out m c := by
  rw [Cert.KernelIdeal.RunValue.W4_out m ρ c, Cert.KernelIdeal.FusedArr.fused_arr (Gen.V3 m ρ) Cert.KernelIdeal.Fused.out2_10_eq c,
    V3_agg0 m ρ c, V3_agg1 m ρ c, V3_wm0 m ρ c, V3_wm1 m ρ c, V3_bm m ρ c, V3_arg0 m ρ c, V3_arg11 m ρ c, V3_arg12 m ρ c, V3_arg13 m ρ c, V3_arg14 m ρ c,
    support0 (Gen.V0 m ρ) c, support1 (Gen.V1 m ρ) c, V0_arg1 m ρ c, V0_arg9 m ρ c, V1_arg2 m ρ c, V1_arg10 m ρ c,
    agg_eq, agg_eq, slice_rows 0 _ _ (by omega), slice_rows 256 _ _ (by omega), reshape_row]
  rfl

end

end Cert.Bridge

end
-- ==== Proof.lean ====
/-
  The certificate of the two-branch sparse message-passing layer.  Both programs compute, for every target row r and
  output channel q,
      out(r, q) = Σ_k h0₃(r, k)·Wm(k, q) + Σ_k h1₃(r, k)·Wm(256 + k, q) + bm(q),
  where, for each branch b, hb₀ = agg_b + x_target, hb_{l+1} = max(hb_l·W_b[l] + bias_b[l], 0) for l = 0, 1, 2, and
  agg_b(r, ·) = Σ over the edges e with rows_b(e) = r of vals_b(e) · (x_src_b·W_b)(cols_b(e), ·).
  The kernel computes the supports x_src_b·W_b in two tiled matrix products, aggregates on the host, and evaluates the
  branches and the merge in one kernel, block of 2000 rows by block; the reference evaluates everything on whole arrays
  and merges by one product of the concatenation [h0₃ | h1₃] with the whole Wm.  At the ideal values the changes of
  float format are the identity, the reference's factor 1.0 on x_target is the identity, the tiles of a matrix
  product are the blocks of the whole product, each row of the output depends on that row of the inputs only, and the
  product with a concatenation is the sum of the two products with the halves of Wm: a finite sum over 512 = 256 + 256
  terms split in two, which needs only that addition of extended reals is commutative and associative.  No finiteness of
  the inputs is used for the values.
-/
import proofs.«119904_j1425929142863_2_alg».proof.Defs
import proofs.«119904_j1425929142863_2_alg».proof.Proof.Gen.Kernel
import proofs.«119904_j1425929142863_2_alg».proof.Proof.Gen.Kernel.Skeleton
import proofs.«119904_j1425929142863_2_alg».proof.Proof.Gen.Kernel.Launch
import proofs.«119904_j1425929142863_2_alg».proof.Proof.Gen.Kernel.Points
import proofs.«119904_j1425929142863_2_alg».proof.Proof.Gen.Kernel.Frame
import proofs.«119904_j1425929142863_2_alg».proof.Proof.Gen.KernelIdeal
import proofs.«119904_j1425929142863_2_alg».proof.Proof.Gen.KernelIdeal.Skeleton
import proofs.«119904_j1425929142863_2_alg».proof.Proof.Gen.KernelIdeal.Launch
import proofs.«119904_j1425929142863_2_alg».proof.Proof.Gen.KernelIdeal.Points
import proofs.«119904_j1425929142863_2_alg».proof.Proof.Gen.KernelIdeal.Frame
import proofs.«119904_j1425929142863_2_alg».proof.Proof.Gen.ReferenceIdeal
import proofs.«119904_j1425929142863_2_alg».proof.Proof.Gen.ReferenceIdeal.Run
import proofs.«119904_j1425929142863_2_alg».proof.Proof.Gen.Pre_finite_inputs
import proofs.«119904_j1425929142863_2_alg».proof.Proof.Bridge
import Idealize.ShloMosaic.Adequacy
import Idealize.ShloMosaic.Init

noncomputable section

namespace Cert.Proof

open Idealize.ShloMosaic Idealize.SL.Sem

/-- The three programs run, without a fault, and leave their arguments as they were: the word-level kernel and its
    idealization by their runs over the three regions, the reference by its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the specification's array. -/
theorem algebraic : Cert.algebraic_KernelIdeal_ReferenceIdeal := by
  intro m ρ m' ρ' _ hagree
  refine ⟨fun c => Cert.Bridge.out m c, ?_, ?_⟩
  · exact (θ_run Cert.KernelIdeal.defs _ _).mono (fun r h c => ⟨(h c).1.trans (Cert.Bridge.kernel_value m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.RefValue.ref_value m' c, h0, h1, h2, h3, h4, h5, h6, h7, h8, h9, h10, h11, h12, h13, h14, h15, h16]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
